-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S8192x1024 : Shape := ⟨2, ![8192, 1024]⟩
abbrev S1024x4096 : Shape := ⟨2, ![1024, 4096]⟩
abbrev S32x3 : Shape := ⟨2, ![32, 3]⟩
abbrev S4 : Shape := ⟨1, ![4]⟩
abbrev S3x4096 : Shape := ⟨2, ![3, 4096]⟩
abbrev S1024x32 : Shape := ⟨2, ![1024, 32]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S32x3 : S_.BroadcastsInDim S32x3 (![] : Fin 0 → Fin S32x3.rank)
  reducesTo_S32x3_S_d0_1 : S32x3.ReducesTo [0, 1] S_
  bcast_S_S4 : S_.BroadcastsInDim S4 (![] : Fin 0 → Fin S4.rank)
  reducesTo_S4_S_d0 : S4.ReducesTo [0] S_
  bcast_S_S3x4096 : S_.BroadcastsInDim S3x4096 (![] : Fin 0 → Fin S3x4096.rank)
  reducesTo_S3x4096_S_d0_1 : S3x4096.ReducesTo [0, 1] S_
  bcast_S_S1024x32 : S_.BroadcastsInDim S1024x32 (![] : Fin 0 → Fin S1024x32.rank)
  reducesTo_S1024x32_S_d0_1 : S1024x32.ReducesTo [0, 1] S_
  reducesTo_S_S_d : S_.ReducesTo [] S_

variable [Facts]

def fn_part2 {F : FTy → Type} [FloatOps F] (main_arg7 : FVec F S_ .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg4 : FVec F S4 .f32) (main_arg5 : FVec F S3x4096 .f32) (main_arg6 : FVec F S1024x32 .f32) (main_arg7 : FVec F S_ .f32) (main_v13 : IVec S_ 1) (main_v16 : IVec S32x3 1) : IVec S_ 1 :=
  let main_c_5 : IVec S_ 1 := constantI S_ 1 1#1
  let main_v17 : IVec S_ 1 := (fun x v => Host.reduce IntOp.andi x v reducesTo_S32x3_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S3x4096 .f32 := Host.absf main_arg5
  let main_cst_8 : FVec F S_ .f32 := constant S_ .f32 0x7F800000#32
  let main_v25 : FVec F S3x4096 .f32 := broadcastInDim S3x4096 ![] bcast_S_S3x4096 main_cst_8
  let main_v26 : IVec S3x4096 1 := cmpf .olt main_v24 main_v25
  let main_c_9 : IVec S_ 1 := constantI S_ 1 1#1
  let main_v27 : IVec S_ 1 := (fun x v => Host.reduce IntOp.andi x v reducesTo_S3x4096_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S4x4096x1024 .f32) (main_arg1 : FVec F S8192x1024 .f32) (main_arg2 : FVec F S1024x4096 .f32) (main_arg3 : FVec F S32x3 .f32) (main_arg4 : FVec F S4 .f32) (main_arg5 : FVec F S3x4096 .f32) (main_arg6 : FVec F S1024x32 .f32) (main_arg7 : FVec F S_ .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S32x3 .f32 := Host.absf main_arg3
  let main_cst_4 : FVec F S_ .f32 := constant S_ .f32 0x7F800000#32
  let main_v15 : FVec F S32x3 .f32 := broadcastInDim S32x3 ![] bcast_S_S32x3 main_cst_4
  let main_v16 : IVec S32x3 1 := cmpf .olt main_v14 main_v15
  fn_part1 (F := F) main_arg4 main_arg5 main_arg6 main_arg7 main_v13 main_v16
-- ==== Kernel.lean ====
abbrev S4x4096x1024 : Shape := ⟨3, ![4, 4096, 1024]⟩
abbrev S8192x1024 : Shape := ⟨2, ![8192, 1024]⟩
abbrev S1024x4096 : Shape := ⟨2, ![1024, 4096]⟩
abbrev S32x3 : Shape := ⟨2, ![32, 3]⟩
abbrev S4 : Shape := ⟨1, ![4]⟩
abbrev S3x4096 : Shape := ⟨2, ![3, 4096]⟩
abbrev S1024x32 : Shape := ⟨2, ![1024, 32]⟩
abbrev S_ : Shape := ⟨0, ![]⟩
abbrev S1 : Shape := ⟨1, ![1]⟩
abbrev S3 : Shape := ⟨1, ![3]⟩
abbrev S1x3 : Shape := ⟨2, ![1, 3]⟩
abbrev S3x3 : Shape := ⟨2, ![3, 3]⟩
abbrev S32x4096 : Shape := ⟨2, ![32, 4096]⟩
abbrev S4096x1024 : Shape := ⟨2, ![4096, 1024]⟩
abbrev S16384x1024 : Shape := ⟨2, ![16384, 1024]⟩
abbrev S1024x1024 : Shape := ⟨2, ![1024, 1024]⟩

abbrev nBuf : Space → Nat
  | .hbm => 104
  | .vmem => 8
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S1024x4096, .f32⟩
  | .hbm, ⟨3, _⟩ => ⟨S32x3, .f32⟩
  | .hbm, ⟨4, _⟩ => ⟨S4, .f32⟩
  | .hbm, ⟨5, _⟩ => ⟨S3x4096, .f32⟩
  | .hbm, ⟨6, _⟩ => ⟨S1024x32, .f32⟩
  | .hbm, ⟨7, _⟩ => ⟨S_, .f32⟩
  | .hbm, ⟨8, _⟩ => ⟨S4, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S3, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S3, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S3, .f32⟩
  | .hbm, ⟨85, _⟩ => ⟨S1x3, .f32⟩
  | .hbm, ⟨86, _⟩ => ⟨S1x3, .f32⟩
  | .hbm, ⟨87, _⟩ => ⟨S1x3, .f32⟩
  | .hbm, ⟨88, _⟩ => ⟨S3x3, .f32⟩
  | .hbm, ⟨89, _⟩ => ⟨S3x3, .f32⟩
  | .hbm, ⟨90, _⟩ => ⟨S32x3, .f32⟩
  | .hbm, ⟨91, _⟩ => ⟨S32x4096, .f32⟩
  | .hbm, ⟨92, _⟩ => ⟨S1024x4096, .f32⟩
  | .hbm, ⟨93, _⟩ => ⟨S1024x4096, .f32⟩
  | .hbm, ⟨94, _⟩ => ⟨S1024x4096, .f32⟩
  | .hbm, ⟨95, _⟩ => ⟨S1024x4096, .f32⟩
  | .hbm, ⟨96, _⟩ => ⟨S4096x1024, .f32⟩
  | .hbm, ⟨97, _⟩ => ⟨S4096x1024, .f32⟩
  | .hbm, ⟨98, _⟩ => ⟨S4096x1024, .bf16⟩
  | .hbm, ⟨99, _⟩ => ⟨S4096x1024, .bf16⟩
  | .hbm, ⟨100, _⟩ => ⟨S1024x4096, .bf16⟩
  | .hbm, ⟨101, _⟩ => ⟨S16384x1024, .f32⟩
  | .hbm, ⟨102, _⟩ => ⟨S16384x1024, .f32⟩
  | .hbm, ⟨103, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S4096x1024, .bf16⟩
  | .local _ .vmem, ⟨3, _⟩ => ⟨S4096x1024, .bf16⟩
  | .local _ .vmem, ⟨4, _⟩ => ⟨S1024x4096, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v8 : Index := Scalar.indexCast v4
  let c0_2 : Index := 0#32
  ![v8.toNat, 0]
def k0_off2 (i : grid0.Coords) : Fin 2 → Nat :=
  let c0_4 : Index := 0#32
  let arg1 : BitVec 32 := BitVec.ofNat 32 (i 1).val
  let c1024_i32 : BitVec 32 := 1024#32
  let v3 : BitVec 32 := Scalar.muli arg1 c1024_i32
  let v4 : BitVec 32 := v3
  let v14 : Index := Scalar.indexCast v4
  ![0, v14.toNat]
def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_11 : BitVec 32 := 0#32
  let v31 : BitVec 1 := Scalar.cmpi .ne v30 c0_i32_11
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4_S_d0 : S4.ReducesTo [0] S_
  h_S_ : 0 < S_.numel
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  transposes_S3x3_S3x3_1_0 : S3x3.Transposes [1, 0] S3x3
  bcast_S_S1024x4096 : S_.BroadcastsInDim S1024x4096 (![] : Fin 0 → Fin S1024x4096.rank)
  slices_S8192x1024_S4096x1024_0_0 : S8192x1024.Slices ![0, 0] S4096x1024
  slices_S8192x1024_S4096x1024_4096_0 : S8192x1024.Slices ![4096, 0] S4096x1024
  bitsLt_bf16_f32 : FTy.bits .bf16 < FTy.bits .f32
  shapeCasts_S4x4096x1024_S16384x1024 : S4x4096x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x1024_S4x4096x1024 : S16384x1024.ShapeCasts S4x4096x1024
  dot_S32x3_S3x3_S32x3_1_0_0_1_n_n_wf : DotDims.WF S32x3 S3x3 S32x3 [1] [0] [0] [1] [] []
  dot_S32x3_S3x4096_S32x4096_1_0_0_1_n_n_wf : DotDims.WF S32x3 S3x4096 S32x4096 [1] [0] [0] [1] [] []
  dot_S1024x32_S32x4096_S1024x4096_1_0_0_1_n_n_wf : DotDims.WF S1024x32 S32x4096 S1024x4096 [1] [0] [0] [1] [] []
  dot_S1024x1024_S1024x1024_S1024x1024_1_1_0_0_n_n_wf : DotDims.WF S1024x1024 S1024x1024 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x1024.size a ≤ S4096x1024.size a
  k0_off2_inb : ∀ i : grid0.Coords, ∀ a, (k0_off2 i) a + S1024x1024.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S32x3_S3x3_S32x3_1_0_0_1_n_n : DotDims S32x3 S3x3 S32x3 where
  lhsContracting := [1]
  rhsContracting := [0]
  lhsNonContracting := [0]
  rhsNonContracting := [1]
  lhsBatch := []
  rhsBatch := []
  wf := dot_S32x3_S3x3_S32x3_1_0_0_1_n_n_wf
def dot_S32x3_S3x4096_S32x4096_1_0_0_1_n_n : DotDims S32x3 S3x4096 S32x4096 where
  lhsContracting := [1]
  rhsContracting := [0]
  lhsNonContracting := [0]
  rhsNonContracting := [1]
  lhsBatch := []
  rhsBatch := []
  wf := dot_S32x3_S3x4096_S32x4096_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v78) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v76) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v77) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v79) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S8192x1024 : Shape := ⟨2, ![8192, 1024]⟩
abbrev S1024x4096 : Shape := ⟨2, ![1024, 4096]⟩
abbrev S32x3 : Shape := ⟨2, ![32, 3]⟩
abbrev S4 : Shape := ⟨1, ![4]⟩
abbrev S3x4096 : Shape := ⟨2, ![3, 4096]⟩
abbrev S1024x32 : Shape := ⟨2, ![1024, 32]⟩
abbrev S_ : Shape := ⟨0, ![]⟩
abbrev S4x4096x8192 : Shape := ⟨3, ![4, 4096, 8192]⟩
abbrev S4x4096x4096 : Shape := ⟨3, ![4, 4096, 4096]⟩
abbrev S1 : Shape := ⟨1, ![1]⟩
abbrev S3 : Shape := ⟨1, ![3]⟩
abbrev S1x3 : Shape := ⟨2, ![1, 3]⟩
abbrev S3x3 : Shape := ⟨2, ![3, 3]⟩
abbrev S32x4096 : Shape := ⟨2, ![32, 4096]⟩

abbrev nBuf : Space → Nat
  | .hbm => 110
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S8192x1024, .f32⟩
  | .hbm, ⟨2, _⟩ => ⟨S1024x4096, .f32⟩
  | .hbm, ⟨3, _⟩ => ⟨S32x3, .f32⟩
  | .hbm, ⟨4, _⟩ => ⟨S4, .f32⟩
  | .hbm, ⟨5, _⟩ => ⟨S3x4096, .f32⟩
  | .hbm, ⟨6, _⟩ => ⟨S1024x32, .f32⟩
  | .hbm, ⟨7, _⟩ => ⟨S_, .f32⟩
  | .hbm, ⟨8, _⟩ => ⟨S4x4096x8192, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S3, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S3, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | .hbm, ⟨95, _⟩ => ⟨S1, .f32⟩
  | .hbm, ⟨96, _⟩ => ⟨S1, .f32⟩
  | .hbm, ⟨97, _⟩ => ⟨S3, .f32⟩
  | .hbm, ⟨98, _⟩ => ⟨S1x3, .f32⟩
  | .hbm, ⟨99, _⟩ => ⟨S1x3, .f32⟩
  | .hbm, ⟨100, _⟩ => ⟨S1x3, .f32⟩
  | .hbm, ⟨101, _⟩ => ⟨S3x3, .f32⟩
  | .hbm, ⟨102, _⟩ => ⟨S3x3, .f32⟩
  | .hbm, ⟨103, _⟩ => ⟨S32x3, .f32⟩
  | .hbm, ⟨104, _⟩ => ⟨S32x4096, .f32⟩
  | .hbm, ⟨105, _⟩ => ⟨S1024x4096, .f32⟩
  | .hbm, ⟨106, _⟩ => ⟨S1024x4096, .f32⟩
  | .hbm, ⟨107, _⟩ => ⟨S1024x4096, .f32⟩
  | .hbm, ⟨108, _⟩ => ⟨S1024x4096, .f32⟩
  | .hbm, ⟨109, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_6 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_9 : Ref sig .tc := ⟨.hbm, 90, rfl⟩
abbrev main_v61 : Ref sig .tc := ⟨.hbm, 91, rfl⟩
abbrev main_cst_10 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S4x4096x8192_S4x4096x4096_0_0_0 : S4x4096x8192.Slices ![0, 0, 0] S4x4096x4096
  slices_S4x4096x8192_S4x4096x4096_0_0_4096 : S4x4096x8192.Slices ![0, 0, 4096] S4x4096x4096
  bcast_S_S4x4096x4096 : S_.BroadcastsInDim S4x4096x4096 (![] : Fin 0 → Fin S4x4096x4096.rank)
  reducesTo_S4_S_d0 : S4.ReducesTo [0] S_
  h_S_ : 0 < S_.numel
  bcast_S_S4 : S_.BroadcastsInDim S4 (![] : Fin 0 → Fin S4.rank)
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S1 : S_.BroadcastsInDim S1 (![] : Fin 0 → Fin S1.rank)
  concatenates_S1_S1_S1_S3_d0 : Shape.Concatenates [S1, S1, S1] S3 0
  bcast_S3_S1x3_1 : S3.BroadcastsInDim S1x3 (![1] : Fin 1 → Fin S1x3.rank)
  concatenates_S1x3_S1x3_S1x3_S3x3_d0 : Shape.Concatenates [S1x3, S1x3, S1x3] S3x3 0
  transposes_S3x3_S3x3_1_0 : S3x3.Transposes [1, 0] S3x3
  bcast_S_S1024x4096 : S_.BroadcastsInDim S1024x4096 (![] : Fin 0 → Fin S1024x4096.rank)
  dot_S4x4096x1024_S8192x1024_S4x4096x8192_2_1_01_0_n_n_wf : DotDims.WF S4x4096x1024 S8192x1024 S4x4096x8192 [2] [1] [0, 1] [0] [] []
  dot_S32x3_S3x3_S32x3_1_0_0_1_n_n_wf : DotDims.WF S32x3 S3x3 S32x3 [1] [0] [0] [1] [] []
  dot_S32x3_S3x4096_S32x4096_1_0_0_1_n_n_wf : DotDims.WF S32x3 S3x4096 S32x4096 [1] [0] [0] [1] [] []
  dot_S1024x32_S32x4096_S1024x4096_1_0_0_1_n_n_wf : DotDims.WF S1024x32 S32x4096 S1024x4096 [1] [0] [0] [1] [] []
  dot_S4x4096x4096_S1024x4096_S4x4096x1024_2_1_01_0_n_n_wf : DotDims.WF S4x4096x4096 S1024x4096 S4x4096x1024 [2] [1] [0, 1] [0] [] []

variable [Facts₀]

def dot_S4x4096x1024_S8192x1024_S4x4096x8192_2_1_01_0_n_n : DotDims S4x4096x1024 S8192x1024 S4x4096x8192 where
  lhsContracting := [2]
  rhsContracting := [1]
  lhsNonContracting := [0, 1]
  rhsNonContracting := [0]
  lhsBatch := []
  rhsBatch := []
  wf := dot_S4x4096x1024_S8192x1024_S4x4096x8192_2_1_01_0_n_n_wf
def dot_S32x3_S3x3_S32x3_1_0_0_1_n_n : DotDims S32x3 S3x3 S32x3 where
  lhsContracting := [1]
  rhsContracting := [0]
  lhsNonContracting := [0]
  rhsNonContracting := [1]
  lhsBatch := []
  rhsBatch := []
  wf := dot_S32x3_S3x3_S32x3_1_0_0_1_n_n_wf
def dot_S32x3_S3x4096_S32x4096_1_0_0_1_n_n : DotDims S32x3 S3x4096 S32x4096 where
  lhsContracting := [1]
  rhsContracting := [0]
  lhsNonContracting := [0]
  rhsNonContracting := [1]
  lhsBatch := []
  rhsBatch := []
  wf := dot_S32x3_S3x4096_S32x4096_1_0_0_1_n_n_wf
def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.KEntry.lean ====
/-
  The region's surroundings for the kernel program as printed, at any float instance.

  @main is ninety-four host operations (the quaternion's rotation matrix, the rank-32 correction of the
  down-projection weight, the two halves of the fused up-projection weight, three format changes, a reshape of
  the activations to 16384 rows), then ONE pipelined region over a 16 x 4 grid, then one reshape of the result.
  This module fixes what the region finds in every TensorCore buffer when it is entered (V: the launch contents
  carried through the operations before it), reduces @main to "region, then the last reshape", shows that the
  last reshape writes none of the region's five arrays, and names the region's own objects: each window's block
  at a grid point, the two conditions of the body (first hidden chunk; last hidden chunk) in closed form over
  the linear grid position, the points at which the output window is idle, the staging memrefs and the
  accumulator scratch. A grid position t is row tile t / 4 and hidden chunk t % 4.
-/
import proofs.«156387_j11038065950940_2_alg».proof.Proof.Gen.Kernel.Launch
import proofs.«156387_j11038065950940_2_alg».proof.Proof.Gen.Kernel.Skeleton
import proofs.«156387_j11038065950940_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The TensorCore buffers of core c when the region is entered: the launch contents after the
    norm's four operations and the ninety that follow them. -/
abbrev V0 (c : Dev nD) : Valuation τ sig (Elt F) :=
  StableHlo.after (List.flatten [hostOps0, hostOps0_1]) (fun b => m (c, b))
/-- The same, read at one TensorCore reference. -/
abbrev V (c : Dev nD) (b : Ref sig .tc) : Buf (Elt F) ((c : Thread nD τ).loc b) := V0 m c (Proc.devRef .tc b)

/-- None of the operations before the region allocates a buffer. -/
theorem before_fresh : ([hostOps0, hostOps0_1] : List (List (HloOp τ sig (Elt F)))).Forall
    fun ops => ops.Forall fun op => op.fresh = ∅ := by
  simp only [List.Forall]; repeat' constructor

/-- Nor does the reshape after it. -/
theorem last_fresh : (hostOps1 : List (HloOp τ sig (Elt F))).Forall fun op => op.fresh = ∅ := by
  simp only [List.Forall]; repeat' constructor

/-- @main reduces to the region entered at V and continued by the last reshape. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    ⟨hostOps0_sub, hostOps0_1_sub⟩ before_fresh main_chain

/-- The last reshape touches unscoped TensorCore buffers only, -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem last_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp last_fresh) op hop
/-- and writes its own result buffer, which is none of the region's five arrays. -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;>
    exact StableHlo.devRef_ne_of_ne (by decide)

/-! ## The windows' blocks -/

/-- Window w's block at grid position t, cut out of its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every position, fetched there or not
    (the activations' block changes with the row tile only; the three weights are fetched once):
    for any proof data whose array is V's and whose body leaves the block in place. One statement per
    input window, the window a literal so that its block's shape computes. -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c)
    (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-! ## The body's two conditions -/

/-- The first conditional's condition (this is the first hidden chunk), from the grid coordinates. -/
abbrev condFirst (i : grid0.Coords) : Prop :=
  (Scalar.cmpi .ne (Scalar.extui (Scalar.cmpi .eq (BitVec.ofNat 32 (i 1).val) 0#32)) 0#32) = 1#1
/-- It holds at the positions that are multiples of four. -/
theorem condFirst_iff : ∀ t : Fin cfg0.N, condFirst (grid0.coords t) ↔ t.val % 4 = 0 :=
  (by decide +kernel : ∀ t : Fin grid0.N, condFirst (grid0.coords t) ↔ t.val % 4 = 0)

/-- The second conditional's condition (this is the last hidden chunk). -/
abbrev condLast (i : grid0.Coords) : Prop := k0_cond2 i = 1#1
/-- It holds at the positions that are 3 modulo four. -/
theorem condLast_iff : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
theorem live3 : ∀ i : grid0.Coords, cfg0.idle 3 i = false := fun _ => rfl
/-- Away from the last hidden chunk the body stores nothing into the output window, -/
theorem idle4_of : ∀ t : Fin cfg0.N, ¬condLast (grid0.coords t) → cfg0.idle 4 (grid0.coords t) = true := by decide +kernel
/-- and the pipeline does not write the output block back there; -/
theorem noFlush4_of : ∀ t : Fin cfg0.N, ¬condLast (grid0.coords t) → (cfg0.win 4).flush t = false := by decide +kernel
/-- at the last hidden chunk the window is live. -/
theorem live4_of : ∀ t : Fin cfg0.N, condLast (grid0.coords t) → cfg0.idle 4 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S1024x1024 .f32 := Memref.whole cc0_scratch0
/-- The accumulator as a view, through which its contents are stated. -/
abbrev accV : View sig .tc .vmem S1024x1024 .f32 := accM.view
/-- One staging buffer of the output window, through which its contents are stated. -/
abbrev outV : View sig .tc .vmem S1024x1024 .f32 := (Memref.whole cc0_stg4_0 : Memref sig .tc .vmem S1024x1024 .f32).view

/-- The region's standing invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KRunFirst.lean ====
/-
  The kernel body at a grid position of the FIRST hidden chunk (the first conditional taken, the second not):
  the accumulator is zeroed, the activations' block and the chunk's rows of the two up-projection halves and
  columns of the down-projection weight are loaded, the chunk's contribution is added to the zeroed accumulator
  and stored back; nothing is stored into the output window. The run is stated on any whole memrefs: the four
  inputs at given contents, the output window's buffer and the accumulator at anything; it ends with the inputs
  and the output's buffer as they were and the accumulator overwritten by the pieces the run's stores leave
  (found by the symbolic run: the witness of the subtype).
-/
import proofs.«156387_j11038065950940_2_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : condFirst i) (hc1 : ¬condLast i) (x0 : Vec F S1024x1024 .f32) (x1 : Vec F S4096x1024 .bf16) (x2 : Vec F S4096x1024 .bf16) (x3 : Vec F S1024x4096 .bf16) :
    { LS : List (View.Piece (Elt F) S1024x1024 .f32) //
      ∀ (d6 : Vec F S1024x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare d6 ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3
                ∗ owns (c : Thread nD τ) a6 fullShare d6
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, fun d6 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
    obtain rfl := h2.eq_unread hf0; obtain rfl := h3.eq_unread hf1; obtain rfl := h4.eq_unread hf2
    obtain rfl := h5.eq_unread hf3; obtain rfl := h6.eq_unread hf6
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]
    · iexists _; isplitr; · ipureintro; exact h6.read_unread _
      iexact H6
    iexists _; iexact H7

end Cert.Kernel.Hand

end
-- ==== Proof.KRunMid.lean ====
/-
  The kernel body at a grid position of a MIDDLE hidden chunk (neither conditional taken): the chunk's
  contribution is added to the accumulator, which holds what the position before left in it; nothing is stored
  into the output window. Stated on any whole memrefs, the inputs and the accumulator at given contents, the
  output's buffer at anything; the accumulator ends overwritten by the pieces the run's store leaves.
-/
import proofs.«156387_j11038065950940_2_alg».proof.Proof.KRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) :
    { LS : List (View.Piece (Elt F) S1024x1024 .f32) //
      ∀ (d6 : Vec F S1024x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare d6 ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3
                ∗ owns (c : Thread nD τ) a6 fullShare d6
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, fun d6 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := h2.eq_unread hf0; obtain rfl := h3.eq_unread hf1; obtain rfl := h4.eq_unread hf2
    obtain rfl := h5.eq_unread hf3; obtain rfl := h6.eq_unread hf6; obtain rfl := h7.eq_unread hf7
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]
    · iexists _; isplitr; · ipureintro; exact h6.read_unread _
      iexact H6
    iexists _; iexact H7

end Cert.Kernel.Hand

end
-- ==== Proof.KRunLast.lean ====
/-
  The kernel body at a grid position of the LAST hidden chunk (the first conditional not taken, the second
  taken): the chunk's contribution is added to the accumulator, which holds what the position before left, and
  the accumulator is then copied whole into the output window's buffer. Stated on any whole memrefs, the inputs
  and the accumulator at given contents, the output's buffer at anything; the accumulator and the output's
  buffer end overwritten by the pieces the run's stores leave (two lists, found by the symbolic run).
-/
import proofs.«156387_j11038065950940_2_alg».proof.Proof.KRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := h2.eq_unread hf0; obtain rfl := h3.eq_unread hf1; obtain rfl := h4.eq_unread hf2
    obtain rfl := h5.eq_unread hf3; obtain rfl := h7.eq_unread hf7
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]; · iexists _; iexact H6
    iexists _; iexact H7

end Cert.Kernel.Hand

end
-- ==== Proof.KArgs.lean ====
/-
  The eight argument arrays through the kernel program as printed: no operation before the region writes one of
  them, so the region finds each at its launch contents; the reshape after the region writes its own result
  only; and none of them is one of the region's five arrays (those are the reshaped activations, the two halves
  of the up-projection weight and the corrected down-projection weight after their format changes, and the
  result). So a run that ends with every array of the region where the pipeline's bookkeeping says, and every
  other unscoped buffer where the last reshape leaves it, ends with the arguments unchanged.
-/
import proofs.«156387_j11038065950940_2_alg».proof.Proof.KEntry
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 8000000 in
/-- Argument 0 reaches the region untouched. -/
theorem V_arg0 (c : Dev nD) : V m c main_arg0 = m ((c : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results_simp <;> rfl

set_option maxHeartbeats 8000000 in
/-- Argument 1 reaches the region untouched. -/
theorem V_arg1 (c : Dev nD) : V m c main_arg1 = m ((c : Thread nD τ).loc main_arg1) := by
  show StableHlo.after (List.flatten [hostOps0, hostOps0_1]) (fun b => m (c, b)) (Proc.devRef .tc main_arg1) = _
  simp only [hostOps0, hostOps0_1, List.flatten_cons, List.flatten_nil, List.append_nil, List.cons_append, List.nil_append]
  after_results_simp <;> rfl

set_option maxHeartbeats 8000000 in
/-- Argument 2 reaches the region untouched. -/
theorem V_arg2 (c : Dev nD) : V m c main_arg2 = m ((c : Thread nD τ).loc main_arg2) := by
  show StableHlo.after (List.flatten [hostOps0, hostOps0_1]) (fun b => m (c, b)) (Proc.devRef .tc main_arg2) = _
  simp only [hostOps0, hostOps0_1, List.flatten_cons, List.flatten_nil, List.append_nil, List.cons_append, List.nil_append]
  after_results_simp <;> rfl

set_option maxHeartbeats 8000000 in
/-- Argument 3 reaches the region untouched. -/
theorem V_arg3 (c : Dev nD) : V m c main_arg3 = m ((c : Thread nD τ).loc main_arg3) := by
  show StableHlo.after (List.flatten [hostOps0, hostOps0_1]) (fun b => m (c, b)) (Proc.devRef .tc main_arg3) = _
  simp only [hostOps0, hostOps0_1, List.flatten_cons, List.flatten_nil, List.append_nil, List.cons_append, List.nil_append]
  after_results_simp <;> rfl

set_option maxHeartbeats 8000000 in
/-- Argument 4 reaches the region untouched. -/
theorem V_arg4 (c : Dev nD) : V m c main_arg4 = m ((c : Thread nD τ).loc main_arg4) := by
  show StableHlo.after (List.flatten [hostOps0, hostOps0_1]) (fun b => m (c, b)) (Proc.devRef .tc main_arg4) = _
  simp only [hostOps0, hostOps0_1, List.flatten_cons, List.flatten_nil, List.append_nil, List.cons_append, List.nil_append]
  after_results_simp <;> rfl

set_option maxHeartbeats 8000000 in
/-- Argument 5 reaches the region untouched. -/
theorem V_arg5 (c : Dev nD) : V m c main_arg5 = m ((c : Thread nD τ).loc main_arg5) := by
  show StableHlo.after (List.flatten [hostOps0, hostOps0_1]) (fun b => m (c, b)) (Proc.devRef .tc main_arg5) = _
  simp only [hostOps0, hostOps0_1, List.flatten_cons, List.flatten_nil, List.append_nil, List.cons_append, List.nil_append]
  after_results_simp <;> rfl

set_option maxHeartbeats 8000000 in
/-- Argument 6 reaches the region untouched. -/
theorem V_arg6 (c : Dev nD) : V m c main_arg6 = m ((c : Thread nD τ).loc main_arg6) := by
  show StableHlo.after (List.flatten [hostOps0, hostOps0_1]) (fun b => m (c, b)) (Proc.devRef .tc main_arg6) = _
  simp only [hostOps0, hostOps0_1, List.flatten_cons, List.flatten_nil, List.append_nil, List.cons_append, List.nil_append]
  after_results_simp <;> rfl

set_option maxHeartbeats 8000000 in
/-- Argument 7 reaches the region untouched. -/
theorem V_arg7 (c : Dev nD) : V m c main_arg7 = m ((c : Thread nD τ).loc main_arg7) := by
  show StableHlo.after (List.flatten [hostOps0, hostOps0_1]) (fun b => m (c, b)) (Proc.devRef .tc main_arg7) = _
  simp only [hostOps0, hostOps0_1, List.flatten_cons, List.flatten_nil, List.append_nil, List.cons_append, List.nil_append]
  after_results_simp <;> rfl

/-- After the region and the last reshape, a buffer that is neither the reshape's result nor one of the
    region's arrays holds what the region found in it. -/
theorem tail_other (dats : (p : Fin 1) → (c : Dev nD) → Dat τ (Elt F) Unit ℕ (UR sig nD τ) ℕ (cfgs p) c)
    (c : Dev nD) (b : Ref sig .tc) (h80 : b ≠ main_v80) (harr : ∀ w, Pipeline.arrRef spec0 w ≠ b) :
    Pipeline.afterTail₀ cfgs dats 0 (V0 m) [hostOps1] c b = V m c b := by
  unfold Pipeline.afterTail₀
  simp only [List.flatten_cons, List.flatten_nil, List.append_nil, hostOps1, StableHlo.after_cons, StableHlo.after_nil]
  rw [StableHlo.reshape_result_ne (h := h80)]
  exact Pipeline.withArrays_of_ne _ c _ _ b harr

/-- The frame post from a frame run: each argument is an unscoped buffer that is no array of the region. -/
theorem args_kept (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).2 main_arg0 (Pipeline.mem_restRefs_of main_arg0 rfl (by decide))).trans
      ((tail_other m dats c main_arg0 (by decide) (by decide)).trans (V_arg0 m c)),
    ((h c).2 main_arg1 (Pipeline.mem_restRefs_of main_arg1 rfl (by decide))).trans
      ((tail_other m dats c main_arg1 (by decide) (by decide)).trans (V_arg1 m c)),
    ((h c).2 main_arg2 (Pipeline.mem_restRefs_of main_arg2 rfl (by decide))).trans
      ((tail_other m dats c main_arg2 (by decide) (by decide)).trans (V_arg2 m c)),
    ((h c).2 main_arg3 (Pipeline.mem_restRefs_of main_arg3 rfl (by decide))).trans
      ((tail_other m dats c main_arg3 (by decide) (by decide)).trans (V_arg3 m c)),
    ((h c).2 main_arg4 (Pipeline.mem_restRefs_of main_arg4 rfl (by decide))).trans
      ((tail_other m dats c main_arg4 (by decide) (by decide)).trans (V_arg4 m c)),
    ((h c).2 main_arg5 (Pipeline.mem_restRefs_of main_arg5 rfl (by decide))).trans
      ((tail_other m dats c main_arg5 (by decide) (by decide)).trans (V_arg5 m c)),
    ((h c).2 main_arg6 (Pipeline.mem_restRefs_of main_arg6 rfl (by decide))).trans
      ((tail_other m dats c main_arg6 (by decide) (by decide)).trans (V_arg6 m c)),
    ((h c).2 main_arg7 (Pipeline.mem_restRefs_of main_arg7 rfl (by decide))).trans
      ((tail_other m dats c main_arg7 (by decide) (by decide)).trans (V_arg7 m c))⟩) h

end Cert.Kernel.Hand

end
-- ==== Proof.KFrame.lean ====
/-
  The frame run of the kernel program as printed, at any float instance.

  The accumulator is carried from one grid position to the next: at a position of the first hidden chunk it is
  zeroed and takes the chunk's contribution, at the others it takes the contribution on top of what the position
  before left, and at the last hidden chunk it is copied into the output window's buffer, which the pipeline
  then writes back to rows 1024 i .. 1024 i + 1023 of the result. "accAt n" names the accumulator after
  position n by recursion on n, through the pieces each case's run leaves; "outAt t" names what the output
  window's buffer holds after position t (meaningful at the last hidden chunk only: elsewhere the window is
  idle and not written back, and the name is a placeholder nothing reads). The region's invariant says: before
  the first position the accumulator holds anything; before any other, what the position before left.
  With that the body meets its obligation at every position, and the library's frame theorem for a region
  between host operations gives the run: every array of the region ends where the bookkeeping says, every other
  unscoped buffer where the last reshape leaves it.
-/
import proofs.«156387_j11038065950940_2_alg».proof.Proof.KRunLast
import proofs.«156387_j11038065950940_2_alg».proof.Proof.KArgs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-chunk run's pieces cover the accumulator. -/
theorem coverFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : condFirst i) (hc1 : ¬condLast i) (x0 : Vec F S1024x1024 .f32) (x1 : Vec F S4096x1024 .bf16) (x2 : Vec F S4096x1024 .bf16) (x3 : Vec F S1024x4096 .bf16) (y : S1024x1024.Idx) :
    ∃ pc ∈ (runFirst c i a2 h2 a3 h3 a4 h4 a5 h5 a6 h6 a7 h7 hc0 hc1 x0 x1 x2 x3).1, y ∈ pc.1.set :=
  View.cover_of_tiledL (runFirst c i a2 h2 a3 h3 a4 h4 a5 h5 a6 h6 a7 h7 hc0 hc1 x0 x1 x2 x3).1 S1024x1024.size (by sl_kernel_rfl) y
/-- The accumulator after a first-chunk position. -/
def accFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : condFirst i) (hc1 : ¬condLast i) (x0 : Vec F S1024x1024 .f32) (x1 : Vec F S4096x1024 .bf16) (x2 : Vec F S4096x1024 .bf16) (x3 : Vec F S1024x4096 .bf16) : Vec F S1024x1024 .f32 :=
  accV.read (Elt F) (accV.writes (Elt F) accV.junk (runFirst c i a2 h2 a3 h3 a4 h4 a5 h5 a6 h6 a7 h7 hc0 hc1 x0 x1 x2 x3).1)

theorem coverMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runMid c i a2 h2 a3 h3 a4 h4 a5 h5 a6 h6 a7 h7 hc0 hc1 x0 x1 x2 x3 xs).1, y ∈ pc.1.set :=
  View.cover_of_tiledL (runMid c i a2 h2 a3 h3 a4 h4 a5 h5 a6 h6 a7 h7 hc0 hc1 x0 x1 x2 x3 xs).1 S1024x1024.size (by sl_kernel_rfl) y
/-- The accumulator after a middle-chunk position, over what the position before left. -/
def accMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  accV.read (Elt F) (accV.writes (Elt F) accV.junk (runMid c i a2 h2 a3 h3 a4 h4 a5 h5 a6 h6 a7 h7 hc0 hc1 x0 x1 x2 x3 xs).1)

theorem coverLastAcc (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runLast c i a2 h2 a3 h3 a4 h4 a5 h5 a6 h6 a7 h7 hc0 hc1 x0 x1 x2 x3 xs).2.1, y ∈ pc.1.set :=
  View.cover_of_tiledL (runLast c i a2 h2 a3 h3 a4 h4 a5 h5 a6 h6 a7 h7 hc0 hc1 x0 x1 x2 x3 xs).2.1 S1024x1024.size (by sl_kernel_rfl) y
/-- The accumulator after a last-chunk position. -/
def accLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  accV.read (Elt F) (accV.writes (Elt F) accV.junk (runLast c i a2 h2 a3 h3 a4 h4 a5 h5 a6 h6 a7 h7 hc0 hc1 x0 x1 x2 x3 xs).2.1)

theorem coverLastOut (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runLast c i a2 h2 a3 h3 a4 h4 a5 h5 a6 h6 a7 h7 hc0 hc1 x0 x1 x2 x3 xs).1, y ∈ pc.1.set :=
  View.cover_of_tiledL (runLast c i a2 h2 a3 h3 a4 h4 a5 h5 a6 h6 a7 h7 hc0 hc1 x0 x1 x2 x3 xs).1 S1024x1024.size (by sl_kernel_rfl) y
/-- The output window's buffer after a last-chunk position. -/
def outLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  outV.read (Elt F) (outV.writes (Elt F) outV.junk (runLast c i a2 h2 a3 h3 a4 h4 a5 h5 a6 h6 a7 h7 hc0 hc1 x0 x1 x2 x3 xs).1)

/-! ## The accumulator, position by position -/

/-- The accumulator after the body at grid position n: the case the position is in (by n modulo 4), run at the
    position's memrefs and input blocks, over what position n - 1 left. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) % 4 = 3 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- What the position before t left in the accumulator (at t = 0: a name nothing reads). -/
abbrev accBefore (c : Dev nD) (t : Fin cfg0.N) : Vec F S1024x1024 .f32 :=
  accAt m c (t.val - 1) (Nat.lt_of_le_of_lt (Nat.sub_le _ _) t.isLt)

theorem accAt_first (c : Dev nD) (t : Fin cfg0.N) (h0 : t.val % 4 = 0) (h1 : ¬t.val % 4 = 3) :
    accAt m c t.val t.isLt = accFirst c (grid0.coords t) (ms0 t) (hs0 t) (ms1 t) (hs1 t) (ms2 t) (hs2 t) (ms3 t) (hs3 t) (ms4 t) (hs4 t) accM (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 4 = 0) (h1 : ¬t.val % 4 = 3) :
    accAt m c t.val t.isLt = accMid c (grid0.coords t) (ms0 t) (hs0 t) (ms1 t) (hs1 t) (ms2 t) (hs2 t) (ms3 t) (hs3 t) (ms4 t) (hs4 t) accM (Memref.isWhole_whole _) (fun h => h0 ((condFirst_iff t).mp h)) (fun h => h1 ((condLast_iff t).mp h)) (iblk m c 0 t) (iblk m c 1 t) (iblk m c 2 t) (iblk m c 3 t) (accBefore m c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt m c t.val t.isLt = accLast c (grid0.coords t) (ms0 t) (hs0 t) (ms1 t) (hs1 t) (ms2 t) (hs2 t) (ms3 t) (hs3 t) (ms4 t) (hs4 t) accM (Memref.isWhole_whole _) (fun h => h0 ((condFirst_iff t).mp h)) ((condLast_iff t).mpr h1) (iblk m c 0 t) (iblk m c 1 t) (iblk m c 2 t) (iblk m c 3 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after position t: at the last hidden chunk the accumulator's copy;
    elsewhere (the window idle, not written back) a placeholder. -/
def outAt (c : Dev nD) (t : Fin cfg0.N) : Vec F S1024x1024 .f32 :=
  if h1 : t.val % 4 = 3 then
    outLast c (grid0.coords t) (ms0 t) (hs0 t) (ms1 t) (hs1 t) (ms2 t) (hs2 t) (ms3 t) (hs3 t) (ms4 t) (hs4 t) accM (Memref.isWhole_whole _) (fun h => (by omega : ¬ t.val % 4 = 0) ((condFirst_iff t).mp h)) ((condLast_iff t).mpr h1) (iblk m c 0 t) (iblk m c 1 t) (iblk m c 2 t) (iblk m c 3 t) (accBefore m c t)
  else accAt m c t.val t.isLt

theorem outAt_last (c : Dev nD) (t : Fin cfg0.N) (h0 : ¬t.val % 4 = 0) (h1 : t.val % 4 = 3) :
    outAt m c t = outLast c (grid0.coords t) (ms0 t) (hs0 t) (ms1 t) (hs1 t) (ms2 t) (hs2 t) (ms3 t) (hs3 t) (ms4 t) (hs4 t) accM (Memref.isWhole_whole _) (fun h => h0 ((condFirst_iff t).mp h)) ((condLast_iff t).mpr h1) (iblk m c 0 t) (iblk m c 1 t) (iblk m c 2 t) (iblk m c 3 t) (accBefore m c t) := by
  unfold outAt; exact dif_pos h1

/-! ## The region's invariant -/

/-- Before position n: at n = 0 the standing invariant (the accumulator at anything); afterwards the accumulator
    at what position n - 1 left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The pipeline's proof data on core c: the arrays as the region finds them; after the body each input's buffer
    at its block, the output's at outAt; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]

set_option maxHeartbeats 4800000 in
/-- The body at any position: the inputs' buffers hold their blocks; the position modulo 4 says which case it is;
    the invariant hands the body the accumulator (at anything at the very first position, else at what the position
    before left) and takes it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in m c t 0 (live0 _), leaves_in m c t 1 (live1 _), leaves_in m c t 2 (live2 _), leaves_in m c t 3 (live3 _),
    after_0, after_1, after_2, after_3]
  have hN : t.val < 64 := lt_of_lt_of_eq t.isLt (show cfg0.N = 64 from N_0)
  by_cases h1 : t.val % 4 = 3
  · have h0 : ¬ t.val % 4 = 0 := by omega
    have hz : t.val ≠ 0 := by omega
    rw [leaves_in m c t 4 (live4_of t ((condLast_iff t).mpr h1)), after_4, outAt_last m c t h0 h1, accAt_last m c t h0 h1]
    unfold outLast accLast; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ (fun h => h0 ((condFirst_iff t).mp h)) ((condLast_iff t).mpr h1) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverLastAcc c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLastOut c _ _ _ _ _ _ _ _ _ _ _ _ _ _ _ _ _ _ _ _)
  · rw [Dat.leavesExact_idle (dats m 0 c) 4 t (idle4_of t (fun h => h1 ((condLast_iff t).mp h))) (noFlush4_of t (fun h => h1 ((condLast_iff t).mp h)))]
    by_cases h0 : t.val % 4 = 0
    · rw [accAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((condFirst_iff t).mp h)) (fun h => h1 ((condLast_iff t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every position. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, every array of the region
    at what the bookkeeping computes from the proof data, every other unscoped buffer as the last reshape leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := last_sub) (hfresh := last_fresh') (hkeep := last_keeps)
    (hmain := hmain m Variants.none) (hA := A_eq m) (hin := hin m) (hout := hout m)

/-- The frame: the program runs and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (dats m) (run_main m ρ)

end Cert.Kernel.Hand

end
-- ==== Proof.KiEntry.lean ====
/-
  The region's surroundings for the idealized kernel program, at any float instance.

  @main is ninety-four host operations (the quaternion's rotation matrix, the rank-32 correction of the
  down-projection weight, the two halves of the fused up-projection weight, three format changes, a reshape of
  the activations to 16384 rows), then ONE pipelined region over a 16 x 4 grid, then one reshape of the result.
  This module fixes what the region finds in every TensorCore buffer when it is entered (V: the launch contents
  carried through the operations before it), reduces @main to "region, then the last reshape", shows that the
  last reshape writes none of the region's five arrays, and names the region's own objects: each window's block
  at a grid point, the two conditions of the body (first hidden chunk; last hidden chunk) in closed form over
  the linear grid position, the points at which the output window is idle, the staging memrefs and the
  accumulator scratch. A grid position t is row tile t / 4 and hidden chunk t % 4.
-/
import proofs.«156387_j11038065950940_2_alg».proof.Proof.Gen.KernelIdeal.Launch
import proofs.«156387_j11038065950940_2_alg».proof.Proof.Gen.KernelIdeal.Skeleton
import proofs.«156387_j11038065950940_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The TensorCore buffers of core c when the region is entered: the launch contents after the
    norm's four operations and the ninety that follow them. -/
abbrev V0 (c : Dev nD) : Valuation τ sig (Elt F) :=
  StableHlo.after (List.flatten [hostOps0, hostOps0_1]) (fun b => m (c, b))
/-- The same, read at one TensorCore reference. -/
abbrev V (c : Dev nD) (b : Ref sig .tc) : Buf (Elt F) ((c : Thread nD τ).loc b) := V0 m c (Proc.devRef .tc b)

/-- None of the operations before the region allocates a buffer. -/
theorem before_fresh : ([hostOps0, hostOps0_1] : List (List (HloOp τ sig (Elt F)))).Forall
    fun ops => ops.Forall fun op => op.fresh = ∅ := by
  simp only [List.Forall]; repeat' constructor

/-- Nor does the reshape after it. -/
theorem last_fresh : (hostOps1 : List (HloOp τ sig (Elt F))).Forall fun op => op.fresh = ∅ := by
  simp only [List.Forall]; repeat' constructor

/-- @main reduces to the region entered at V and continued by the last reshape. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1]
    ⟨hostOps0_sub, hostOps0_1_sub⟩ before_fresh main_chain

/-- The last reshape touches unscoped TensorCore buffers only, -/
theorem last_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem last_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp last_fresh) op hop
/-- and writes its own result buffer, which is none of the region's five arrays. -/
theorem last_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;>
    exact StableHlo.devRef_ne_of_ne (by decide)

/-! ## The windows' blocks -/

/-- Window w's block at grid position t, cut out of its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- An input window's current staging buffer holds its block at every position, fetched there or not
    (the activations' block changes with the row tile only; the three weights are fetched once):
    for any proof data whose array is V's and whose body leaves the block in place. One statement per
    input window, the window a literal so that its block's shape computes. -/
theorem before_in0_of {c : Dev nD} (dat : Dat τ (Elt F) Unit ℕ (UR sig nD τ) ℕ cfg0 c)
    (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

theorem before_in1_of {c : Dev nD} (dat : Dat τ (Elt F) Unit ℕ (UR sig nD τ) ℕ cfg0 c)
    (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)

theorem before_in2_of {c : Dev nD} (dat : Dat τ (Elt F) Unit ℕ (UR sig nD τ) ℕ cfg0 c)
    (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)

theorem before_in3_of {c : Dev nD} (dat : Dat τ (Elt F) Unit ℕ (UR sig nD τ) ℕ cfg0 c)
    (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)

/-! ## The body's two conditions -/

/-- The first conditional's condition (this is the first hidden chunk), from the grid coordinates. -/
abbrev condFirst (i : grid0.Coords) : Prop :=
  (Scalar.cmpi .ne (Scalar.extui (Scalar.cmpi .eq (BitVec.ofNat 32 (i 1).val) 0#32)) 0#32) = 1#1
/-- It holds at the positions that are multiples of four. -/
theorem condFirst_iff : ∀ t : Fin cfg0.N, condFirst (grid0.coords t) ↔ t.val % 4 = 0 :=
  (by decide +kernel : ∀ t : Fin grid0.N, condFirst (grid0.coords t) ↔ t.val % 4 = 0)

/-- The second conditional's condition (this is the last hidden chunk). -/
abbrev condLast (i : grid0.Coords) : Prop := k0_cond2 i = 1#1
/-- It holds at the positions that are 3 modulo four. -/
theorem condLast_iff : ∀ t : Fin cfg0.N, condLast (grid0.coords t) ↔ t.val % 4 = 3 :=
  (by decide +kernel : ∀ t : Fin grid0.N, condLast (grid0.coords t) ↔ t.val % 4 = 3)

/-! ## Where the windows are idle -/

theorem live0 : ∀ i : grid0.Coords, cfg0.idle 0 i = false := fun _ => rfl
theorem live1 : ∀ i : grid0.Coords, cfg0.idle 1 i = false := fun _ => rfl
theorem live2 : ∀ i : grid0.Coords, cfg0.idle 2 i = false := fun _ => rfl
theorem live3 : ∀ i : grid0.Coords, cfg0.idle 3 i = false := fun _ => rfl
/-- Away from the last hidden chunk the body stores nothing into the output window, -/
theorem idle4_of : ∀ t : Fin cfg0.N, ¬condLast (grid0.coords t) → cfg0.idle 4 (grid0.coords t) = true := by decide +kernel
/-- and the pipeline does not write the output block back there; -/
theorem noFlush4_of : ∀ t : Fin cfg0.N, ¬condLast (grid0.coords t) → (cfg0.win 4).flush t = false := by decide +kernel
/-- at the last hidden chunk the window is live. -/
theorem live4_of : ∀ t : Fin cfg0.N, condLast (grid0.coords t) → cfg0.idle 4 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1024 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev accM : Memref sig .tc .vmem S1024x1024 .f32 := Memref.whole cc0_scratch0
/-- The accumulator as a view, through which its contents are stated. -/
abbrev accV : View sig .tc .vmem S1024x1024 .f32 := accM.view
/-- One staging buffer of the output window, through which its contents are stated. -/
abbrev outV : View sig .tc .vmem S1024x1024 .f32 := (Memref.whole cc0_stg4_0 : Memref sig .tc .vmem S1024x1024 .f32).view

/-- The region's standing invariant with the accumulator as a memref owned at some contents. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KiRunFirst.lean ====
/-
  The kernel body at a grid position of the FIRST hidden chunk (the first conditional taken, the second not):
  the accumulator is zeroed, the activations' block and the chunk's rows of the two up-projection halves and
  columns of the down-projection weight are loaded, the chunk's contribution is added to the zeroed accumulator
  and stored back; nothing is stored into the output window. The run is stated on any whole memrefs: the four
  inputs at given contents, the output window's buffer and the accumulator at anything; it ends with the inputs
  and the output's buffer as they were and the accumulator overwritten by the pieces the run's stores leave
  (found by the symbolic run: the witness of the subtype).
-/
import proofs.«156387_j11038065950940_2_alg».proof.Proof.KiEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : condFirst i) (hc1 : ¬condLast i) (x0 : Vec F S1024x1024 .f32) (x1 : Vec F S4096x1024 .bf16) (x2 : Vec F S4096x1024 .bf16) (x3 : Vec F S1024x4096 .bf16) :
    { LS : List (View.Piece (Elt F) S1024x1024 .f32) //
      ∀ (d6 : Vec F S1024x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare d6 ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3
                ∗ owns (c : Thread nD τ) a6 fullShare d6
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, fun d6 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f6, %hf6, H6⟩, ⟨%d7, %f7, -, H7⟩, Hk⟩
    obtain rfl := h2.eq_unread hf0; obtain rfl := h3.eq_unread hf1; obtain rfl := h4.eq_unread hf2
    obtain rfl := h5.eq_unread hf3; obtain rfl := h6.eq_unread hf6
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]
    · iexists _; isplitr; · ipureintro; exact h6.read_unread _
      iexact H6
    iexists _; iexact H7

end Cert.KernelIdeal.Hand

end
-- ==== Proof.KiRunMid.lean ====
/-
  The kernel body at a grid position of a MIDDLE hidden chunk (neither conditional taken): the chunk's
  contribution is added to the accumulator, which holds what the position before left in it; nothing is stored
  into the output window. Stated on any whole memrefs, the inputs and the accumulator at given contents, the
  output's buffer at anything; the accumulator ends overwritten by the pieces the run's store leaves.
-/
import proofs.«156387_j11038065950940_2_alg».proof.Proof.KiRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) :
    { LS : List (View.Piece (Elt F) S1024x1024 .f32) //
      ∀ (d6 : Vec F S1024x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ owns (c : Thread nD τ) a6 fullShare d6 ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3
                ∗ owns (c : Thread nD τ) a6 fullShare d6
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, fun d6 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
    obtain rfl := h2.eq_unread hf0; obtain rfl := h3.eq_unread hf1; obtain rfl := h4.eq_unread hf2
    obtain rfl := h5.eq_unread hf3; obtain rfl := h6.eq_unread hf6; obtain rfl := h7.eq_unread hf7
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]
    · iexists _; isplitr; · ipureintro; exact h6.read_unread _
      iexact H6
    iexists _; iexact H7

end Cert.KernelIdeal.Hand

end
-- ==== Proof.KiRunLast.lean ====
/-
  The kernel body at a grid position of the LAST hidden chunk (the first conditional not taken, the second
  taken): the chunk's contribution is added to the accumulator, which holds what the position before left, and
  the accumulator is then copied whole into the output window's buffer. Stated on any whole memrefs, the inputs
  and the accumulator at given contents, the output's buffer at anything; the accumulator and the output's
  buffer end overwritten by the pieces the run's stores leave (two lists, found by the symbolic run).
-/
import proofs.«156387_j11038065950940_2_alg».proof.Proof.KiRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole)
    (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3
            ∗ (∃ d, owns (c : Thread nD τ) a6 fullShare d) ∗ owns (c : Thread nD τ) a7 fullShare xs
            ∗ (iprop(owns (c : Thread nD τ) a2 fullShare x0 ∗ owns (c : Thread nD τ) a3 fullShare x1 ∗ owns (c : Thread nD τ) a4 fullShare x2 ∗ owns (c : Thread nD τ) a5 fullShare x3
                ∗ (∃ f, a6.view.loc (c : Thread nD τ) ↦[a6.view.set]{fullShare} a6.view.writes (Elt F) f LO)
                ∗ (∃ f, a7.view.loc (c : Thread nD τ) ↦[a7.view.set]{fullShare} a7.view.writes (Elt F) f LS)) -∗ K ⟨⟩))
          ⊢ wp frame (wpE (defs₀ (F := F)) Variants.none c none) E (cc0__mlp_kernel i a2 h2 a3 h3 a4 h4 a5 h5 a6 h6 a7 h7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%d6, %f6, -, H6⟩, ⟨%f7, %hf7, H7⟩, Hk⟩
    obtain rfl := h2.eq_unread hf0; obtain rfl := h3.eq_unread hf1; obtain rfl := h4.eq_unread hf2
    obtain rfl := h5.eq_unread hf3; obtain rfl := h7.eq_unread hf7
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H6]; · iexists _; iexact H6
    iexists _; iexact H7

end Cert.KernelIdeal.Hand

end
-- ==== Proof.KiArgs.lean ====
/-
  The eight argument arrays through the idealized kernel program: no operation before the region writes one of
  them, so the region finds each at its launch contents; the reshape after the region writes its own result
  only; and none of them is one of the region's five arrays (those are the reshaped activations, the two halves
  of the up-projection weight and the corrected down-projection weight after their format changes, and the
  result). So a run that ends with every array of the region where the pipeline's bookkeeping says, and every
  other unscoped buffer where the last reshape leaves it, ends with the arguments unchanged.
-/
import proofs.«156387_j11038065950940_2_alg».proof.Proof.KiEntry
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 8000000 in
/-- Argument 0 reaches the region untouched. -/
theorem V_arg0 (c : Dev nD) : V m c main_arg0 = m ((c : Thread nD τ).loc main_arg0) := by
  show StableHlo.after (List.flatten [hostOps0, hostOps0_1]) (fun b => m (c, b)) (Proc.devRef .tc main_arg0) = _
  simp only [hostOps0, hostOps0_1, List.flatten_cons, List.flatten_nil, List.append_nil, List.cons_append, List.nil_append]
  after_results_simp <;> rfl

set_option maxHeartbeats 8000000 in
/-- Argument 1 reaches the region untouched. -/
theorem V_arg1 (c : Dev nD) : V m c main_arg1 = m ((c : Thread nD τ).loc main_arg1) := by
  show StableHlo.after (List.flatten [hostOps0, hostOps0_1]) (fun b => m (c, b)) (Proc.devRef .tc main_arg1) = _
  simp only [hostOps0, hostOps0_1, List.flatten_cons, List.flatten_nil, List.append_nil, List.cons_append, List.nil_append]
  after_results_simp <;> rfl

set_option maxHeartbeats 8000000 in
/-- Argument 2 reaches the region untouched. -/
theorem V_arg2 (c : Dev nD) : V m c main_arg2 = m ((c : Thread nD τ).loc main_arg2) := by
  show StableHlo.after (List.flatten [hostOps0, hostOps0_1]) (fun b => m (c, b)) (Proc.devRef .tc main_arg2) = _
  simp only [hostOps0, hostOps0_1, List.flatten_cons, List.flatten_nil, List.append_nil, List.cons_append, List.nil_append]
  after_results_simp <;> rfl

set_option maxHeartbeats 8000000 in
/-- Argument 3 reaches the region untouched. -/
theorem V_arg3 (c : Dev nD) : V m c main_arg3 = m ((c : Thread nD τ).loc main_arg3) := by
  show StableHlo.after (List.flatten [hostOps0, hostOps0_1]) (fun b => m (c, b)) (Proc.devRef .tc main_arg3) = _
  simp only [hostOps0, hostOps0_1, List.flatten_cons, List.flatten_nil, List.append_nil, List.cons_append, List.nil_append]
  after_results_simp <;> rfl

set_option maxHeartbeats 8000000 in
/-- Argument 4 reaches the region untouched. -/
theorem V_arg4 (c : Dev nD) : V m c main_arg4 = m ((c : Thread nD τ).loc main_arg4) := by
  show StableHlo.after (List.flatten [hostOps0, hostOps0_1]) (fun b => m (c, b)) (Proc.devRef .tc main_arg4) = _
  simp only [hostOps0, hostOps0_1, List.flatten_cons, List.flatten_nil, List.append_nil, List.cons_append, List.nil_append]
  after_results_simp <;> rfl

set_option maxHeartbeats 8000000 in
/-- Argument 5 reaches the region untouched. -/
theorem V_arg5 (c : Dev nD) : V m c main_arg5 = m ((c : Thread nD τ).loc main_arg5) := by
  show StableHlo.after (List.flatten [hostOps0, hostOps0_1]) (fun b => m (c, b)) (Proc.devRef .tc main_arg5) = _
  simp only [hostOps0, hostOps0_1, List.flatten_cons, List.flatten_nil, List.append_nil, List.cons_append, List.nil_append]
  after_results_simp <;> rfl

set_option maxHeartbeats 8000000 in
/-- Argument 6 reaches the region untouched. -/
theorem V_arg6 (c : Dev nD) : V m c main_arg6 = m ((c : Thread nD τ).loc main_arg6) := by
  show StableHlo.after (List.flatten [hostOps0, hostOps0_1]) (fun b => m (c, b)) (Proc.devRef .tc main_arg6) = _
  simp only [hostOps0, hostOps0_1, List.flatten_cons, List.flatten_nil, List.append_nil, List.cons_append, List.nil_append]
  after_results_simp <;> rfl

set_option maxHeartbeats 8000000 in
/-- Argument 7 reaches the region untouched. -/
theorem V_arg7 (c : Dev nD) : V m c main_arg7 = m ((c : Thread nD τ).loc main_arg7) := by
  show StableHlo.after (List.flatten [hostOps0, hostOps0_1]) (fun b => m (c, b)) (Proc.devRef .tc main_arg7) = _
  simp only [hostOps0, hostOps0_1, List.flatten_cons, List.flatten_nil, List.append_nil, List.cons_append, List.nil_append]
  after_results_simp <;> rfl

/-- After the region and the last reshape, a buffer that is neither the reshape's result nor one of the
    region's arrays holds what the region found in it. -/
theorem tail_other (dats : (p : Fin 1) → (c : Dev nD) → Dat τ (Elt F) Unit ℕ (UR sig nD τ) ℕ (cfgs p) c)
    (c : Dev nD) (b : Ref sig .tc) (h80 : b ≠ main_v80) (harr : ∀ w, Pipeline.arrRef spec0 w ≠ b) :
    Pipeline.afterTail₀ cfgs dats 0 (V0 m) [hostOps1] c b = V m c b := by
  unfold Pipeline.afterTail₀
  simp only [List.flatten_cons, List.flatten_nil, List.append_nil, hostOps1, StableHlo.after_cons, StableHlo.after_nil]
  rw [StableHlo.reshape_result_ne (h := h80)]
  exact Pipeline.withArrays_of_ne _ c _ _ b harr

/-- The frame post from a frame run: each argument is an unscoped buffer that is no array of the region. -/
theorem args_kept (dats : (p : Fin 1) → (c : Dev nD) → Dat τ (Elt F) Unit ℕ (UR sig nD τ) ℕ (cfgs p) c)
    (h : θ_run defs (onTc (τ := τ) (main (F := F))) (s₀ m ρ)
      (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).2 main_arg0 (Pipeline.mem_restRefs_of main_arg0 rfl (by decide))).trans
      ((tail_other m dats c main_arg0 (by decide) (by decide)).trans (V_arg0 m c)),
    ((h c).2 main_arg1 (Pipeline.mem_restRefs_of main_arg1 rfl (by decide))).trans
      ((tail_other m dats c main_arg1 (by decide) (by decide)).trans (V_arg1 m c)),
    ((h c).2 main_arg2 (Pipeline.mem_restRefs_of main_arg2 rfl (by decide))).trans
      ((tail_other m dats c main_arg2 (by decide) (by decide)).trans (V_arg2 m c)),
    ((h c).2 main_arg3 (Pipeline.mem_restRefs_of main_arg3 rfl (by decide))).trans
      ((tail_other m dats c main_arg3 (by decide) (by decide)).trans (V_arg3 m c)),
    ((h c).2 main_arg4 (Pipeline.mem_restRefs_of main_arg4 rfl (by decide))).trans
      ((tail_other m dats c main_arg4 (by decide) (by decide)).trans (V_arg4 m c)),
    ((h c).2 main_arg5 (Pipeline.mem_restRefs_of main_arg5 rfl (by decide))).trans
      ((tail_other m dats c main_arg5 (by decide) (by decide)).trans (V_arg5 m c)),
    ((h c).2 main_arg6 (Pipeline.mem_restRefs_of main_arg6 rfl (by decide))).trans
      ((tail_other m dats c main_arg6 (by decide) (by decide)).trans (V_arg6 m c)),
    ((h c).2 main_arg7 (Pipeline.mem_restRefs_of main_arg7 rfl (by decide))).trans
      ((tail_other m dats c main_arg7 (by decide) (by decide)).trans (V_arg7 m c))⟩) h

end Cert.KernelIdeal.Hand

end
-- ==== Proof.KiFrame.lean ====
/-
  The frame run of the idealized kernel program, at any float instance.

  The accumulator is carried from one grid position to the next: at a position of the first hidden chunk it is
  zeroed and takes the chunk's contribution, at the others it takes the contribution on top of what the position
  before left, and at the last hidden chunk it is copied into the output window's buffer, which the pipeline
  then writes back to rows 1024 i .. 1024 i + 1023 of the result. "accAt n" names the accumulator after
  position n by recursion on n, through the pieces each case's run leaves; "outAt t" names what the output
  window's buffer holds after position t (meaningful at the last hidden chunk only: elsewhere the window is
  idle and not written back, and the name is a placeholder nothing reads). The region's invariant says: before
  the first position the accumulator holds anything; before any other, what the position before left.
  With that the body meets its obligation at every position, and the library's frame theorem for a region
  between host operations gives the run: every array of the region ends where the bookkeeping says, every other
  unscoped buffer where the last reshape leaves it.
-/
import proofs.«156387_j11038065950940_2_alg».proof.Proof.KiRunLast
import proofs.«156387_j11038065950940_2_alg».proof.Proof.KiArgs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first-chunk run's pieces cover the accumulator. -/
theorem coverFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : condFirst i) (hc1 : ¬condLast i) (x0 : Vec F S1024x1024 .f32) (x1 : Vec F S4096x1024 .bf16) (x2 : Vec F S4096x1024 .bf16) (x3 : Vec F S1024x4096 .bf16) (y : S1024x1024.Idx) :
    ∃ pc ∈ (runFirst c i a2 h2 a3 h3 a4 h4 a5 h5 a6 h6 a7 h7 hc0 hc1 x0 x1 x2 x3).1, y ∈ pc.1.set :=
  View.cover_of_tiledL (runFirst c i a2 h2 a3 h3 a4 h4 a5 h5 a6 h6 a7 h7 hc0 hc1 x0 x1 x2 x3).1 S1024x1024.size (by sl_kernel_rfl) y
/-- The accumulator after a first-chunk position. -/
def accFirst (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : condFirst i) (hc1 : ¬condLast i) (x0 : Vec F S1024x1024 .f32) (x1 : Vec F S4096x1024 .bf16) (x2 : Vec F S4096x1024 .bf16) (x3 : Vec F S1024x4096 .bf16) : Vec F S1024x1024 .f32 :=
  accV.read (Elt F) (accV.writes (Elt F) accV.junk (runFirst c i a2 h2 a3 h3 a4 h4 a5 h5 a6 h6 a7 h7 hc0 hc1 x0 x1 x2 x3).1)

theorem coverMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runMid c i a2 h2 a3 h3 a4 h4 a5 h5 a6 h6 a7 h7 hc0 hc1 x0 x1 x2 x3 xs).1, y ∈ pc.1.set :=
  View.cover_of_tiledL (runMid c i a2 h2 a3 h3 a4 h4 a5 h5 a6 h6 a7 h7 hc0 hc1 x0 x1 x2 x3 xs).1 S1024x1024.size (by sl_kernel_rfl) y
/-- The accumulator after a middle-chunk position, over what the position before left. -/
def accMid (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  accV.read (Elt F) (accV.writes (Elt F) accV.junk (runMid c i a2 h2 a3 h3 a4 h4 a5 h5 a6 h6 a7 h7 hc0 hc1 x0 x1 x2 x3 xs).1)

theorem coverLastAcc (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runLast c i a2 h2 a3 h3 a4 h4 a5 h5 a6 h6 a7 h7 hc0 hc1 x0 x1 x2 x3 xs).2.1, y ∈ pc.1.set :=
  View.cover_of_tiledL (runLast c i a2 h2 a3 h3 a4 h4 a5 h5 a6 h6 a7 h7 hc0 hc1 x0 x1 x2 x3 xs).2.1 S1024x1024.size (by sl_kernel_rfl) y
/-- The accumulator after a last-chunk position. -/
def accLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  accV.read (Elt F) (accV.writes (Elt F) accV.junk (runLast c i a2 h2 a3 h3 a4 h4 a5 h5 a6 h6 a7 h7 hc0 hc1 x0 x1 x2 x3 xs).2.1)

theorem coverLastOut (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) (y : S1024x1024.Idx) :
    ∃ pc ∈ (runLast c i a2 h2 a3 h3 a4 h4 a5 h5 a6 h6 a7 h7 hc0 hc1 x0 x1 x2 x3 xs).1, y ∈ pc.1.set :=
  View.cover_of_tiledL (runLast c i a2 h2 a3 h3 a4 h4 a5 h5 a6 h6 a7 h7 hc0 hc1 x0 x1 x2 x3 xs).1 S1024x1024.size (by sl_kernel_rfl) y
/-- The output window's buffer after a last-chunk position. -/
def outLast (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) : Vec F S1024x1024 .f32 :=
  outV.read (Elt F) (outV.writes (Elt F) outV.junk (runLast c i a2 h2 a3 h3 a4 h4 a5 h5 a6 h6 a7 h7 hc0 hc1 x0 x1 x2 x3 xs).1)

/-! ## The accumulator, position by position -/

/-- The accumulator after the body at grid position n: the case the position is in (by n modulo 4), run at the
    position's memrefs and input blocks, over what position n - 1 left. -/
def accAt (c : Dev nD) : (n : ℕ) → n < cfg0.N → Vec F S1024x1024 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) ((condFirst_iff ⟨0, hn⟩).mpr (Nat.zero_mod _)) (fun h => (fun h => by (try dsimp only at h); omega) ((condLast_iff ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) % 4 = 3 then False.elim (by omega)
      else accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) ((condFirst_iff ⟨n + 1, hn⟩).mpr h0) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 4 = 3 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condFirst_iff ⟨n + 1, hn⟩).mp h)) ((condLast_iff ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) (fun h => h0 ((condFirst_iff ⟨n + 1, hn⟩).mp h)) (fun h => h1 ((condLast_iff ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- What the position before t left in the accumulator (at t = 0: a name nothing reads). -/
abbrev accBefore (c : Dev nD) (t : Fin cfg0.N) : Vec F S1024x1024 .f32 :=
  accAt m c (t.val - 1) (Nat.lt_of_le_of_lt (Nat.sub_le _ _) t.isLt)

theorem accAt_first (c : Dev nD) (t : Fin cfg0.N) (h0 : t.val % 4 = 0) (h1 : ¬t.val % 4 = 3) :
    accAt m c t.val t.isLt = accFirst c (grid0.coords t) (ms0 t) (hs0 t) (ms1 t) (hs1 t) (ms2 t) (hs2 t) (ms3 t) (hs3 t) (ms4 t) (hs4 t) accM (Memref.isWhole_whole _) ((condFirst_iff t).mpr h0) (fun h => h1 ((condLast_iff t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

theorem accAt_mid (c : Dev nD) (t : Fin cfg0.N) (h0 : ¬t.val % 4 = 0) (h1 : ¬t.val % 4 = 3) :
    accAt m c t.val t.isLt = accMid c (grid0.coords t) (ms0 t) (hs0 t) (ms1 t) (hs1 t) (ms2 t) (hs2 t) (ms3 t) (hs3 t) (ms4 t) (hs4 t) accM (Memref.isWhole_whole _) (fun h => h0 ((condFirst_iff t).mp h)) (fun h => h1 ((condLast_iff t).mp h)) (iblk m c 0 t) (iblk m c 1 t) (iblk m c 2 t) (iblk m c 3 t) (accBefore m c t) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 4 = 0) (h1 : t.val % 4 = 3) :
    accAt m c t.val t.isLt = accLast c (grid0.coords t) (ms0 t) (hs0 t) (ms1 t) (hs1 t) (ms2 t) (hs2 t) (ms3 t) (hs3 t) (ms4 t) (hs4 t) accM (Memref.isWhole_whole _) (fun h => h0 ((condFirst_iff t).mp h)) ((condLast_iff t).mpr h1) (iblk m c 0 t) (iblk m c 1 t) (iblk m c 2 t) (iblk m c 3 t) (accBefore m c t) := by
  obtain ⟨n, hn⟩ := t
  cases n with
  | zero => exact (by exfalso; (try dsimp only at h0); exact absurd (Nat.zero_mod _) h0)
  | succ n => exact (dif_neg h0).trans ((dif_pos h1).trans rfl)

/-- What the output window's buffer holds after position t: at the last hidden chunk the accumulator's copy;
    elsewhere (the window idle, not written back) a placeholder. -/
def outAt (c : Dev nD) (t : Fin cfg0.N) : Vec F S1024x1024 .f32 :=
  if h1 : t.val % 4 = 3 then
    outLast c (grid0.coords t) (ms0 t) (hs0 t) (ms1 t) (hs1 t) (ms2 t) (hs2 t) (ms3 t) (hs3 t) (ms4 t) (hs4 t) accM (Memref.isWhole_whole _) (fun h => (by omega : ¬ t.val % 4 = 0) ((condFirst_iff t).mp h)) ((condLast_iff t).mpr h1) (iblk m c 0 t) (iblk m c 1 t) (iblk m c 2 t) (iblk m c 3 t) (accBefore m c t)
  else accAt m c t.val t.isLt

theorem outAt_last (c : Dev nD) (t : Fin cfg0.N) (h0 : ¬t.val % 4 = 0) (h1 : t.val % 4 = 3) :
    outAt m c t = outLast c (grid0.coords t) (ms0 t) (hs0 t) (ms1 t) (hs1 t) (ms2 t) (hs2 t) (ms3 t) (hs3 t) (ms4 t) (hs4 t) accM (Memref.isWhole_whole _) (fun h => h0 ((condFirst_iff t).mp h)) ((condLast_iff t).mpr h1) (iblk m c 0 t) (iblk m c 1 t) (iblk m c 2 t) (iblk m c 3 t) (accBefore m c t) := by
  unfold outAt; exact dif_pos h1

/-! ## The region's invariant -/

/-- Before position n: at n = 0 the standing invariant (the accumulator at anything); afterwards the accumulator
    at what position n - 1 left, and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The proof data -/

/-- The pipeline's proof data on core c: the arrays as the region finds them; after the body each input's buffer
    at its block, the output's at outAt; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_in (c : Dev nD) (t : Fin cfg0.N) (w : Fin cfg0.W) (hl : cfg0.idle w (grid0.coords t) = false) :
    (dats m 0 c).leavesExact w t = owns (c : Thread nD τ) ((cfg0.win w).stage (cfg0.slots t w)) fullShare ((dats m 0 c).after w t) := by
  unfold Dat.leavesExact; rw [hl]

set_option maxHeartbeats 4800000 in
/-- The body at any position: the inputs' buffers hold their blocks; the position modulo 4 says which case it is;
    the invariant hands the body the accumulator (at anything at the very first position, else at what the position
    before left) and takes it back at this position's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  rw [leaves_in m c t 0 (live0 _), leaves_in m c t 1 (live1 _), leaves_in m c t 2 (live2 _), leaves_in m c t 3 (live3 _),
    after_0, after_1, after_2, after_3]
  have hN : t.val < 64 := lt_of_lt_of_eq t.isLt (show cfg0.N = 64 from N_0)
  by_cases h1 : t.val % 4 = 3
  · have h0 : ¬ t.val % 4 = 0 := by omega
    have hz : t.val ≠ 0 := by omega
    rw [leaves_in m c t 4 (live4_of t ((condLast_iff t).mpr h1)), after_4, outAt_last m c t h0 h1, accAt_last m c t h0 h1]
    unfold outLast accLast; (try dsimp only)
    rw [PhiS_castSucc m c t, PhiS_pos m c _ _ hz]
    iintro ⟨⟨HS, Hg⟩, Ho, ⟨%d0, H0⟩, ⟨%d1, H1⟩, ⟨%d2, H2⟩, ⟨%d3, H3⟩, ⟨%d4, H4⟩⟩
    iapply ((runLast c (grid0.coords t) _ _ _ _ _ _ _ _ _ _ _ _ (fun h => h0 ((condFirst_iff t).mp h)) ((condLast_iff t).mpr h1) (iblk m c 0 t) (iblk m c 1 t) (iblk m c 2 t) (iblk m c 3 t) _).2.2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%e4, H4⟩, ⟨%es, HS⟩⟩
    isplitl [HS Hg]
    · isplitl [HS]
      · unfold owns; iexists _; isplitr
        swap; · iexact HS
        ipureintro; exact View.read_writes_of_cover _ _ _ _ _ (coverLastAcc c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverLastOut c _ _ _ _ _ _ _ _ _ _ _ _ _ _ _ _ _ _ _ _)
  · rw [Dat.leavesExact_idle (dats m 0 c) 4 t (idle4_of t (fun h => h1 ((condLast_iff t).mp h))) (noFlush4_of t (fun h => h1 ((condLast_iff t).mp h)))]
    by_cases h0 : t.val % 4 = 0
    · rw [accAt_first m c t h0 h1]
      unfold accFirst; (try dsimp only)
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ ((condFirst_iff t).mpr h0) (fun h => h1 ((condLast_iff t).mp h)) (iblk m c 0 t) (iblk m c 1 t) (iblk m c 2 t) (iblk m c 3 t)).2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := by omega
      rw [accAt_mid m c t h0 h1]
      unfold accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply ((runMid c (grid0.coords t) _ _ _ _ _ _ _ _ _ _ _ _ (fun h => h0 ((condFirst_iff t).mp h)) (fun h => h1 ((condLast_iff t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (coverMid c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every position. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The run and the frame -/

set_option backward.isDefEq.respectTransparency.types false in
/-- From any memory with zero counters every weakly fair execution of @main terminates, every array of the region
    at what the bookkeeping computes from the proof data, every other unscoped buffer as the last reshape leaves it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := last_sub) (hfresh := last_fresh') (hkeep := last_keeps)
    (hmain := hmain m Variants.none) (hA := A_eq m) (hin := hin m) (hout := hout m)

/-- The frame: the program runs and its eight arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (dats m) (run_main m ρ)

end Cert.KernelIdeal.Hand

end
-- ==== Proof.KiPieces.lean ====
/-
  What each case of the body leaves, as values (any float instance): after a middle or last hidden chunk the
  accumulator holds the step's payload over the activations' tile, the chunk's rows of the two up-projection halves,
  the chunk's columns of the down-projection weight and the accumulator's previous contents; after a first chunk the
  same over the zero block the reset stored; and the output window's buffer after a last chunk holds what the
  accumulator holds (it is a copy). "rowsAt" and "colsAt" name the chunk's rows / columns as the body's loads read
  them out of the whole weight buffers: 1024 rows from row 1024 h, respectively 1024 columns from column 1024 h,
  at hidden chunk h.
-/
import proofs.«156387_j11038065950940_2_alg».proof.Proof.KiFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

/-- The chunk's 1024 rows of an up-projection half, as the body's load reads them. -/
def rowsAt (i : grid0.Coords) (x : Vec F S4096x1024 .bf16) : Vec F S1024x1024 .bf16 :=
  View.ld x (Rect.unit (s := S4096x1024) (k0_off1 i) S1024x1024.size (k0_off1_inb i))

/-- The chunk's 1024 columns of the down-projection weight, as the body's load reads them. -/
def colsAt (i : grid0.Coords) (x : Vec F S1024x4096 .bf16) : Vec F S1024x1024 .bf16 :=
  View.ld x (Rect.unit (s := S1024x4096) (k0_off2 i) S1024x1024.size (k0_off2_inb i))

theorem accMid_eq (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : ¬condLast i) (x0 : Vec F S1024x1024 .f32) (x1 : Vec F S4096x1024 .bf16) (x2 : Vec F S4096x1024 .bf16) (x3 : Vec F S1024x4096 .bf16) (xs : Vec F S1024x1024 .f32) :
    accMid c i a2 h2 a3 h3 a4 h4 a5 h5 a6 h6 a7 h7 hc0 hc1 x0 x1 x2 x3 xs = k0_pay2 x0 (rowsAt i x1) (rowsAt i x2) (colsAt i x3) xs := by
  unfold accMid
  rw [View.read_writes_eq_canon _ _ _ (coverMid c i a2 h2 a3 h3 a4 h4 a5 h5 a6 h6 a7 h7 hc0 hc1 x0 x1 x2 x3 xs)]
  unfold runMid
  dsimp only
  rw [View.canon_unit_zero hz]
  simp only [View.readAt_eq_ld, h2.read_unread, h3.read_unread, h4.read_unread, h5.read_unread, h7.read_unread,
    View.ld_unit_zero (S := S1024x1024) hz]
  rfl

theorem accFirst_eq (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : condFirst i) (hc1 : ¬condLast i) (x0 : Vec F S1024x1024 .f32) (x1 : Vec F S4096x1024 .bf16) (x2 : Vec F S4096x1024 .bf16) (x3 : Vec F S1024x4096 .bf16) :
    accFirst c i a2 h2 a3 h3 a4 h4 a5 h5 a6 h6 a7 h7 hc0 hc1 x0 x1 x2 x3 = k0_pay2 x0 (rowsAt i x1) (rowsAt i x2) (colsAt i x3) (k0_pay1 (F := F)) := by
  unfold accFirst
  rw [View.read_writes_eq_canon _ _ _ (coverFirst c i a2 h2 a3 h3 a4 h4 a5 h5 a6 h6 a7 h7 hc0 hc1 x0 x1 x2 x3)]
  unfold runFirst
  dsimp only
  sl_unfold_words
  rw [View.canon_cons_unit_zero (S := S1024x1024) hz, View.readCov_unit_zero (S := S1024x1024) _ hz]
  simp only [View.readAt_eq_ld, h2.read_unread, h3.read_unread, h4.read_unread, h5.read_unread,
    View.ld_unit_zero (S := S1024x1024) hz]
  rfl

theorem accLast_eq (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) :
    accLast c i a2 h2 a3 h3 a4 h4 a5 h5 a6 h6 a7 h7 hc0 hc1 x0 x1 x2 x3 xs = k0_pay2 x0 (rowsAt i x1) (rowsAt i x2) (colsAt i x3) xs := by
  unfold accLast
  rw [View.read_writes_eq_canon _ _ _ (coverLastAcc c i a2 h2 a3 h3 a4 h4 a5 h5 a6 h6 a7 h7 hc0 hc1 x0 x1 x2 x3 xs)]
  unfold runLast
  dsimp only
  sl_unfold_words
  rw [View.canon_unit_zero hz]
  simp only [View.readAt_eq_ld, h2.read_unread, h3.read_unread, h4.read_unread, h5.read_unread, h7.read_unread,
    View.ld_unit_zero (S := S1024x1024) hz]
  rfl

theorem outLast_eq (c : Dev nD) (i : grid0.Coords) (a2 : Memref sig .tc .vmem S1024x1024 .f32) (h2 : a2.IsWhole) (a3 : Memref sig .tc .vmem S4096x1024 .bf16) (h3 : a3.IsWhole) (a4 : Memref sig .tc .vmem S4096x1024 .bf16) (h4 : a4.IsWhole) (a5 : Memref sig .tc .vmem S1024x4096 .bf16) (h5 : a5.IsWhole) (a6 : Memref sig .tc .vmem S1024x1024 .f32) (h6 : a6.IsWhole) (a7 : Memref sig .tc .vmem S1024x1024 .f32) (h7 : a7.IsWhole) (hc0 : ¬condFirst i) (hc1 : condLast i) (x0 : Vec F S1024x1024 .f32) (x1 : Vec F S4096x1024 .bf16) (x2 : Vec F S4096x1024 .bf16) (x3 : Vec F S1024x4096 .bf16) (xs : Vec F S1024x1024 .f32) :
    outLast c i a2 h2 a3 h3 a4 h4 a5 h5 a6 h6 a7 h7 hc0 hc1 x0 x1 x2 x3 xs = k0_pay2 x0 (rowsAt i x1) (rowsAt i x2) (colsAt i x3) xs := by
  unfold outLast
  rw [View.read_writes_eq_canon _ _ _ (coverLastOut c i a2 h2 a3 h3 a4 h4 a5 h5 a6 h6 a7 h7 hc0 hc1 x0 x1 x2 x3 xs)]
  unfold runLast
  dsimp only
  sl_unfold_words
  rw [View.canon_unit_zero hz, View.readCov_unit_zero (S := S1024x1024) _ hz]
  simp only [View.readAt_eq_ld, h2.read_unread, h3.read_unread, h4.read_unread, h5.read_unread, h7.read_unread,
    View.ld_unit_zero (S := S1024x1024) hz]
  rfl

end Cert.KernelIdeal.Hand

end
-- ==== Proof.KiBlocks.lean ====
/-
  Where the body's operands sit in the arrays the region finds (any float instance). At grid position t — row tile
  t / 4, hidden chunk t % 4 — entry (p, e) of the activations' block is row 1024 (t / 4) + p of the 16384-row array;
  entry (k, e) of the chunk's rows of an up-projection half is row 1024 (t % 4) + k of that half; entry (q, k) of the
  chunk's columns of the down-projection weight is column 1024 (t % 4) + k of row q. The three weight windows always
  hold their whole arrays (block index (0, 0)); the activations' and the result's block index is (t / 4, 0).
-/
import proofs.«156387_j11038065950940_2_alg».proof.Proof.KiPieces
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val / 4 ∧ win0_4.index t 1 = 0 :=
  (by decide +kernel : ∀ t : Fin grid0.N, win0_4.index t 0 = t.val / 4 ∧ win0_4.index t 1 = 0)
/-- The chunk's first row, from the grid position. -/
theorem off1 : ∀ t : Fin cfg0.N, k0_off1 (grid0.coords t) 0 = 1024 * (t.val % 4) ∧ k0_off1 (grid0.coords t) 1 = 0 :=
  (by decide +kernel : ∀ t : Fin grid0.N, k0_off1 (grid0.coords t) 0 = 1024 * (t.val % 4) ∧ k0_off1 (grid0.coords t) 1 = 0)
/-- The chunk's first column, from the grid position. -/
theorem off2 : ∀ t : Fin cfg0.N, k0_off2 (grid0.coords t) 0 = 0 ∧ k0_off2 (grid0.coords t) 1 = 1024 * (t.val % 4) :=
  (by decide +kernel : ∀ t : Fin grid0.N, k0_off2 (grid0.coords t) 0 = 0 ∧ k0_off2 (grid0.coords t) 1 = 1024 * (t.val % 4))

/-- The activations' block: rows 1024 (t / 4) .. of the 16384-row array. -/
theorem x_block (c : Dev nD) (t : Fin cfg0.N) (p e : Fin 1024) (r : Fin 16384) (hr : r.val = 1024 * (t.val / 4) + p.val) :
    (iblk m c 0 t : Vec F S1024x1024 .f32) (ix2 p e) = V m c main_v78 (ix2 r e) := by
  unfold iblk
  rw [View.read_apply]
  show V m c main_v78 _ = V m c main_v78 _
  congr 1
  funext a
  apply Fin.ext
  match a with
  | ⟨0, _⟩ => show win0_0.index t 0 * 1024 + 1 * p.val = r.val; rw [(idx0 t).1]; omega
  | ⟨1, _⟩ => show win0_0.index t 1 * 1024 + 1 * e.val = e.val; rw [(idx0 t).2]; omega

/-- A load of 1024 rows out of a [4096, 1024] buffer, at entry (k, e): the buffer at row (first row + k). -/
theorem rowsAt_apply (i : grid0.Coords) (x : Vec F S4096x1024 .bf16) (k e : Fin 1024) (j : Fin 4096)
    (hj : j.val = k0_off1 i 0 + k.val) (h1 : k0_off1 i 1 = 0) : rowsAt i x (ix2 k e) = x (ix2 j e) := by
  unfold rowsAt
  show x _ = x _
  congr 1
  funext a
  apply Fin.ext
  match a with
  | ⟨0, _⟩ => show k0_off1 i 0 + 1 * k.val = j.val; omega
  | ⟨1, _⟩ => show k0_off1 i 1 + 1 * e.val = e.val; omega

/-- A load of 1024 columns out of a [1024, 4096] buffer, at entry (q, k): the buffer at column (first column + k). -/
theorem colsAt_apply (i : grid0.Coords) (x : Vec F S1024x4096 .bf16) (q k : Fin 1024) (j : Fin 4096)
    (hj : j.val = k0_off2 i 1 + k.val) (h0 : k0_off2 i 0 = 0) : colsAt i x (ix2 q k) = x (ix2 q j) := by
  unfold colsAt
  show x _ = x _
  congr 1
  funext a
  apply Fin.ext
  match a with
  | ⟨0, _⟩ => show k0_off2 i 0 + 1 * q.val = q.val; omega
  | ⟨1, _⟩ => show k0_off2 i 1 + 1 * k.val = j.val; omega

/-- The gate window's block is its whole array. -/
theorem g_block (c : Dev nD) (t : Fin cfg0.N) (a b) :
    (iblk m c 1 t : Vec F S4096x1024 .bf16) (ix2 a b) = V m c main_v75 (ix2 a b) := by
  unfold iblk
  rw [View.read_apply]
  show V m c main_v75 _ = V m c main_v75 _
  congr 1
  funext d
  apply Fin.ext
  match d with
  | ⟨0, _⟩ => show win0_1.index t 0 * 4096 + 1 * a.val = a.val; rw [(idx1 t).1]; omega
  | ⟨1, _⟩ => show win0_1.index t 1 * 1024 + 1 * b.val = b.val; rw [(idx1 t).2]; omega

/-- The data window's block is its whole array. -/
theorem d_block (c : Dev nD) (t : Fin cfg0.N) (a b) :
    (iblk m c 2 t : Vec F S4096x1024 .bf16) (ix2 a b) = V m c main_v76 (ix2 a b) := by
  unfold iblk
  rw [View.read_apply]
  show V m c main_v76 _ = V m c main_v76 _
  congr 1
  funext d
  apply Fin.ext
  match d with
  | ⟨0, _⟩ => show win0_2.index t 0 * 4096 + 1 * a.val = a.val; rw [(idx2 t).1]; omega
  | ⟨1, _⟩ => show win0_2.index t 1 * 1024 + 1 * b.val = b.val; rw [(idx2 t).2]; omega

/-- The down-projection window's block is its whole array. -/
theorem w_block (c : Dev nD) (t : Fin cfg0.N) (a b) :
    (iblk m c 3 t : Vec F S1024x4096 .bf16) (ix2 a b) = V m c main_v77 (ix2 a b) := by
  unfold iblk
  rw [View.read_apply]
  show V m c main_v77 _ = V m c main_v77 _
  congr 1
  funext d
  apply Fin.ext
  match d with
  | ⟨0, _⟩ => show win0_3.index t 0 * 1024 + 1 * a.val = a.val; rw [(idx3 t).1]; omega
  | ⟨1, _⟩ => show win0_3.index t 1 * 4096 + 1 * b.val = b.val; rw [(idx3 t).2]; omega

/-- The chunk's rows of the gate half. -/
theorem g_rows (c : Dev nD) (t : Fin cfg0.N) (k e : Fin 1024) (j : Fin 4096) (hj : j.val = 1024 * (t.val % 4) + k.val) :
    rowsAt (grid0.coords t) (iblk m c 1 t : Vec F S4096x1024 .bf16) (ix2 k e) = V m c main_v75 (ix2 j e) :=
  (rowsAt_apply (grid0.coords t) _ k e j (by rw [(off1 t).1]; exact hj) (off1 t).2).trans (g_block m c t j e)

/-- The chunk's rows of the data half. -/
theorem d_rows (c : Dev nD) (t : Fin cfg0.N) (k e : Fin 1024) (j : Fin 4096) (hj : j.val = 1024 * (t.val % 4) + k.val) :
    rowsAt (grid0.coords t) (iblk m c 2 t : Vec F S4096x1024 .bf16) (ix2 k e) = V m c main_v76 (ix2 j e) :=
  (rowsAt_apply (grid0.coords t) _ k e j (by rw [(off1 t).1]; exact hj) (off1 t).2).trans (d_block m c t j e)

/-- The chunk's columns of the down-projection weight. -/
theorem w_cols (c : Dev nD) (t : Fin cfg0.N) (q k : Fin 1024) (j : Fin 4096) (hj : j.val = 1024 * (t.val % 4) + k.val) :
    colsAt (grid0.coords t) (iblk m c 3 t : Vec F S1024x4096 .bf16) (ix2 q k) = V m c main_v77 (ix2 q j) :=
  (colsAt_apply (grid0.coords t) _ q k j (by rw [(off2 t).2]; exact hj) (off2 t).1).trans (w_block m c t q j)

end Cert.KernelIdeal.Hand

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.KiPayload.lean ====
/-
  The arithmetic of one grid step of the idealized kernel, read at an entry, on the extended reals.

  One step holds a 1024-row tile X of the activations, the step's 1024 rows of each half of the up-projection
  weight (Wg, Wd) and the step's 1024 columns of the down-projection weight (Wc, a [1024, 1024] block read as
  Wc(q, k): output feature q, hidden unit k of the chunk). All three products contract the LAST axis of both
  operands into a zero accumulator, so each is a plain sum:

      gate(p,k) = sum over e of X(p,e) * Wg(k,e),      data(p,k) = sum over e of X(p,e) * Wd(k,e),
      new(p,q)  = old(p,q) + sum over k of ((gate(p,k) * logistic(gate(p,k))) * data(p,k)) * Wc(q,k).

  Changes of float format are the identity at these values, and the casts between equal shapes are the identity.
-/
import proofs.«156387_j11038065950940_2_alg».proof.Proof.Gen.KernelIdeal.Skeleton
import proofs.«156387_j11038065950940_2_alg».proof.Proof.LibContract1
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx Idealize.ShloMosaic.Pipeline

variable [Cert.KernelIdeal.Facts]

theorem mmL0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mmL1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem mmR0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem mmR1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- A product of the body at entry (p, q): both operands are contracted on their last axis. -/
theorem mm_apply {φ₁ φ₂ : FTy} (lhs : FVec Ideal S1024x1024 φ₁) (rhs : FVec Ideal S1024x1024 φ₂) (p q : Fin 1024) :
    matmul dot_S1024x1024_S1024x1024_S1024x1024_1_1_0_0_n_n none lhs rhs (constant (F := Ideal) S1024x1024 .f32 0x00000000#32) (ix2 p q)
      = ∑ k : Fin 1024, lhs (ix2 p k) * rhs (ix2 q k) :=
  Cert.LibContract1.matmul_zero_single dot_S1024x1024_S1024x1024_S1024x1024_1_1_0_0_n_n 1024 rfl rfl lhs rhs (ix2 p q) (fun k => ix2 p k) (fun k => ix2 q k)
    (fun k => funext fun a => Fin.ext (by
      have hk := contrEquiv1_symm_val dot_S1024x1024_S1024x1024_S1024x1024_1_1_0_0_n_n 1024 rfl rfl k
      match a with
      | ⟨0, _⟩ => exact mmL0 _ _
      | ⟨1, _⟩ => exact (mmL1 _ _).trans hk))
    (fun k => funext fun a => Fin.ext (by
      have hk := contrEquiv1_symm_val dot_S1024x1024_S1024x1024_S1024x1024_1_1_0_0_n_n 1024 rfl rfl k
      match a with
      | ⟨0, _⟩ => exact mmR0 _ _
      | ⟨1, _⟩ => exact (mmR1 _ _).trans hk))

/-- The step's gate pre-activation at (row p, hidden unit k of the chunk). -/
def stepGate (X : Vec Ideal S1024x1024 .f32) (Wg : Vec Ideal S1024x1024 .bf16) (p k : Fin 1024) : EReal :=
  ∑ e : Fin 1024, X (ix2 p e) * Wg (ix2 k e)

/-- The step's contribution to entry (p, q) of the accumulator. -/
def stepTerm (X : Vec Ideal S1024x1024 .f32) (Wg Wd Wc : Vec Ideal S1024x1024 .bf16) (p q : Fin 1024) : EReal :=
  ∑ k : Fin 1024, ((stepGate X Wg p k * Ideal.logistic (stepGate X Wg p k)) * stepGate X Wd p k) * Wc (ix2 q k)

/-- What a step stores into the accumulator, at entry (p, q): the old entry plus the step's contribution. -/
theorem pay2_apply (X : Vec Ideal S1024x1024 .f32) (Wg Wd Wc : Vec Ideal S1024x1024 .bf16) (old : Vec Ideal S1024x1024 .f32)
    (p q : Fin 1024) :
    k0_pay2 (F := Ideal) X Wg Wd Wc old (ix2 p q) = old (ix2 p q) + stepTerm X Wg Wd Wc p q := by
  unfold k0_pay2
  simp only [shapeCast_self]
  show old (ix2 p q) + matmul dot_S1024x1024_S1024x1024_S1024x1024_1_1_0_0_n_n none _ Wc (constant (F := Ideal) S1024x1024 .f32 0x00000000#32) (ix2 p q) = _
  rw [mm_apply]
  refine congrArg _ (Finset.sum_congr rfl fun k _ => ?_)
  show ((matmul dot_S1024x1024_S1024x1024_S1024x1024_1_1_0_0_n_n none _ Wg (constant (F := Ideal) S1024x1024 .f32 0x00000000#32) (ix2 p k)
        * Ideal.logistic (matmul dot_S1024x1024_S1024x1024_S1024x1024_1_1_0_0_n_n none _ Wg (constant (F := Ideal) S1024x1024 .f32 0x00000000#32) (ix2 p k)))
      * matmul dot_S1024x1024_S1024x1024_S1024x1024_1_1_0_0_n_n none _ Wd (constant (F := Ideal) S1024x1024 .f32 0x00000000#32) (ix2 p k)) * Wc (ix2 q k) = _
  rw [mm_apply, mm_apply]
  rfl

/-- What the reset stores: zero everywhere. -/
theorem pay1_apply (j : S1024x1024.Idx) : k0_pay1 (F := Ideal) j = 0 := by
  unfold k0_pay1
  simp only [shapeCast_self]
  exact Ideal.ofBits_zero_f32

end Cert.KernelIdeal.Hand

end
-- ==== Proof.Spec.lean ====
/-
  What both programs compute, as ONE function of the activations x [4, 4096, 1024], the fused up-projection
  weight wf [8192, 1024] and the (already corrected) down-projection weight W [1024, 4096], on the extended reals:

      gate(b,s,j) = sum over e < 1024 of x(b,s,e) * wf(j, e)              (rows 0 .. 4095 of wf)
      data(b,s,j) = sum over e < 1024 of x(b,s,e) * wf(4096 + j, e)       (rows 4096 .. 8191 of wf)
      act(b,s,j)  = (gate * logistic gate) * data                          (the gated unit)
      out(b,s,d)  = sum over j < 4096 of act(b,s,j) * W(d, j)

  The down-projection weight enters as a given array: both programs build it from the same host operations, and
  this file never looks inside it. The kernel computes the last sum in four chunks of 1024 hidden units, one per
  grid step, into an accumulator that starts at zero; "hidden_chunks" is the law that makes that the whole sum:
  a sum over Fin 4096 is the sum over four chunks of the sums over Fin 1024 at position 1024 h + k. It uses
  only that addition on the extended reals is commutative and associative, so it needs no finiteness.
-/
import Idealize.ShloMosaic.PureOps.Ideal
import Idealize.ShloMosaic.Lib.ValueIdx

noncomputable section

namespace Cert.Spec

open Idealize.ShloMosaic Idealize.ShloMosaic.ValueIdx

abbrev Sx : Shape := ⟨3, ![4, 4096, 1024]⟩
abbrev Swf : Shape := ⟨2, ![8192, 1024]⟩
abbrev SW : Shape := ⟨2, ![1024, 4096]⟩

/-- Hidden unit j as a row of the first half of the fused weight. -/
abbrev loRow (j : Fin 4096) : Fin 8192 := ⟨j.val, by omega⟩
/-- Hidden unit j as a row of the second half of the fused weight. -/
abbrev hiRow (j : Fin 4096) : Fin 8192 := ⟨4096 + j.val, by omega⟩

/-- The gate pre-activation of hidden unit j at token (b, s). -/
def gate (x : Sx.Idx → EReal) (wf : Swf.Idx → EReal) (b : Fin 4) (s : Fin 4096) (j : Fin 4096) : EReal :=
  ∑ e : Fin 1024, x (ix3 b s e) * wf (ix2 (loRow j) e)

/-- The data pre-activation of hidden unit j at token (b, s). -/
def data (x : Sx.Idx → EReal) (wf : Swf.Idx → EReal) (b : Fin 4) (s : Fin 4096) (j : Fin 4096) : EReal :=
  ∑ e : Fin 1024, x (ix3 b s e) * wf (ix2 (hiRow j) e)

/-- The gated unit: (gate * logistic gate) * data. -/
def act (x : Sx.Idx → EReal) (wf : Swf.Idx → EReal) (b : Fin 4) (s : Fin 4096) (j : Fin 4096) : EReal :=
  (gate x wf b s j * Ideal.logistic (gate x wf b s j)) * data x wf b s j

/-- The result at (b, s, d). -/
def out (x : Sx.Idx → EReal) (wf : Swf.Idx → EReal) (W : SW.Idx → EReal) : Sx.Idx → EReal :=
  fun i => ∑ j : Fin 4096, act x wf (i 0) (i 1) j * W (ix2 (i 2) j)

/-- Position k of hidden chunk h. -/
abbrev chunkAt (h : Fin 4) (k : Fin 1024) : Fin 4096 := ⟨1024 * h.val + k.val, by omega⟩

/-- A sum over the 4096 hidden units is the sum, over the four chunks, of the sums over each chunk's 1024 units. -/
theorem hidden_chunks {M : Type*} [AddCommMonoid M] (f : Fin 4096 → M) :
    ∑ j : Fin 4096, f j = ∑ h : Fin 4, ∑ k : Fin 1024, f (chunkAt h k) := by
  rw [← Finset.sum_product', Finset.univ_product_univ]
  symm
  refine Fintype.sum_equiv (finProdFinEquiv (m := 4) (n := 1024) |>.trans (finCongr (by norm_num))) _ _ ?_
  rintro ⟨h, k⟩
  congr 1
  apply Fin.ext
  simp only [Equiv.trans_apply, finProdFinEquiv_apply_val, finCongr_apply, Fin.coe_cast]
  omega

end Cert.Spec

end
-- ==== Proof.Spec2.lean ====
/-
  The same computation in the layout the kernel works in: the activations as 16384 rows X [16384, 1024], the two
  halves of the up-projection weight as separate arrays Wg, Wd [4096, 1024], the down-projection weight W [1024, 4096]:

      out2(r, q) = sum over j < 4096 of act2(r, j) * W(q, j),
      act2(r, j) = (g * logistic g) * d,   g = sum over e of X(r,e) * Wg(j,e),   d = sum over e of X(r,e) * Wd(j,e).

  "out2_chunks" cuts the sum over the hidden units into the four chunks the grid walks, and "chain4" says that the
  kernel's accumulator after its four steps, (((0 + t0) + t1) + t2) + t3, is the sum of the four terms.
-/
import proofs.«156387_j11038065950940_2_alg».proof.Proof.Spec

noncomputable section

namespace Cert.Spec

open Idealize.ShloMosaic Idealize.ShloMosaic.ValueIdx

abbrev Sx2 : Shape := ⟨2, ![16384, 1024]⟩
abbrev Sh : Shape := ⟨2, ![4096, 1024]⟩

/-- A pre-activation of hidden unit j at row r: the row against row j of an up-projection half. -/
def pre2 (X : Sx2.Idx → EReal) (Wu : Sh.Idx → EReal) (r : Fin 16384) (j : Fin 4096) : EReal :=
  ∑ e : Fin 1024, X (ix2 r e) * Wu (ix2 j e)

/-- The gated unit at row r, hidden unit j. -/
def act2 (X : Sx2.Idx → EReal) (Wg Wd : Sh.Idx → EReal) (r : Fin 16384) (j : Fin 4096) : EReal :=
  (pre2 X Wg r j * Ideal.logistic (pre2 X Wg r j)) * pre2 X Wd r j

/-- The result at (row r, output feature q). -/
def out2 (X : Sx2.Idx → EReal) (Wg Wd : Sh.Idx → EReal) (W : SW.Idx → EReal) : Sx2.Idx → EReal :=
  fun i => ∑ j : Fin 4096, act2 X Wg Wd (i 0) j * W (ix2 (i 1) j)

/-- The contribution of hidden chunk h to entry (r, q). -/
def chunkTerm (X : Sx2.Idx → EReal) (Wg Wd : Sh.Idx → EReal) (W : SW.Idx → EReal) (r : Fin 16384) (q : Fin 1024) (h : Fin 4) : EReal :=
  ∑ k : Fin 1024, act2 X Wg Wd r (chunkAt h k) * W (ix2 q (chunkAt h k))

theorem out2_chunks (X : Sx2.Idx → EReal) (Wg Wd : Sh.Idx → EReal) (W : SW.Idx → EReal) (r : Fin 16384) (q : Fin 1024) :
    out2 X Wg Wd W (ix2 r q) = ∑ h : Fin 4, chunkTerm X Wg Wd W r q h := by
  show ∑ j : Fin 4096, act2 X Wg Wd r j * W (ix2 q j) = _
  exact hidden_chunks fun j => act2 X Wg Wd r j * W (ix2 q j)

/-- Four additions in order from zero are the sum of the four terms. -/
theorem chain4 (t : Fin 4 → EReal) : (((0 + t 0) + t 1) + t 2) + t 3 = ∑ h : Fin 4, t h := by
  rw [Fin.sum_univ_four, zero_add]

end Cert.Spec

end
-- ==== Proof.KiAccum.lean ====
/-
  The result array of the idealized kernel's region, on the extended reals.

  At grid position t the step adds to the accumulator's entry (p, q) the term
      sum over k < 1024 of act(1024 (t/4) + p, 1024 (t%4) + k) * W(q, 1024 (t%4) + k)
  of the arrays the region finds: "chunkTerm" of Spec2 at row 1024 (t/4) + p, feature q, chunk t % 4. Over the four
  positions of a row tile the accumulator runs 0 + t0, + t1, + t2, + t3; the last position copies it to the output
  window, whose block (t/4, 0) the pipeline writes back. Four additions from zero are the sum over the chunks, and
  the sum over the chunks is the sum over all 4096 hidden units: rows 1024 i .. 1024 i + 1023 of the result end at
  out2 of the four arrays. The sixteen written blocks tile the 16384 rows, so the whole array ends at out2.
  No finiteness is used: only that addition of extended reals is commutative and associative.
-/
import proofs.«156387_j11038065950940_2_alg».proof.Proof.KiBlocks
import proofs.«156387_j11038065950940_2_alg».proof.Proof.KiPayload
import proofs.«156387_j11038065950940_2_alg».proof.Proof.Spec2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Spec (chunkAt chunkTerm out2 act2 pre2)

variable (m : (ℓ : Loc nD τ sig) → Buf (Elt Ideal) ℓ)

/-- The four arrays the region reads, as it finds them. -/
abbrev Ax (c : Dev nD) : Cert.Spec.Sx2.Idx → EReal := V m c main_v78
abbrev Ag (c : Dev nD) : Cert.Spec.Sh.Idx → EReal := V m c main_v75
abbrev Ad (c : Dev nD) : Cert.Spec.Sh.Idx → EReal := V m c main_v76
abbrev Aw (c : Dev nD) : Cert.Spec.SW.Idx → EReal := V m c main_v77

/-- The step's contribution at grid position t, entry (p, q). -/
def termAt (c : Dev nD) (t : Fin cfg0.N) (p q : Fin 1024) : EReal :=
  stepTerm (iblk m c 0 t) (rowsAt (grid0.coords t) (iblk m c 1 t)) (rowsAt (grid0.coords t) (iblk m c 2 t))
    (colsAt (grid0.coords t) (iblk m c 3 t)) p q

/-- It is the chunk's term of the arrays, at row 1024 (t/4) + p and chunk t % 4. -/
theorem term_eq (c : Dev nD) (t : Fin cfg0.N) (p q : Fin 1024) (r : Fin 16384) (h : Fin 4)
    (hr : r.val = 1024 * (t.val / 4) + p.val) (hh : h.val = t.val % 4) :
    termAt m c t p q = chunkTerm (Ax m c) (Ag m c) (Ad m c) (Aw m c) r q h := by
  have hj : ∀ k : Fin 1024, (chunkAt h k).val = 1024 * (t.val % 4) + k.val := fun k => by
    show 1024 * h.val + k.val = _; rw [hh]
  have hG : ∀ k : Fin 1024, stepGate (iblk m c 0 t) (rowsAt (grid0.coords t) (iblk m c 1 t)) p k
      = pre2 (Ax m c) (Ag m c) r (chunkAt h k) := fun k =>
    Finset.sum_congr rfl fun e _ => by rw [x_block m c t p e r hr, g_rows m c t k e (chunkAt h k) (hj k)]
  have hD : ∀ k : Fin 1024, stepGate (iblk m c 0 t) (rowsAt (grid0.coords t) (iblk m c 2 t)) p k
      = pre2 (Ax m c) (Ad m c) r (chunkAt h k) := fun k =>
    Finset.sum_congr rfl fun e _ => by rw [x_block m c t p e r hr, d_rows m c t k e (chunkAt h k) (hj k)]
  unfold termAt stepTerm chunkTerm act2
  exact Finset.sum_congr rfl fun k _ => by rw [hG k, hD k, w_cols m c t q k (chunkAt h k) (hj k)]

theorem accAt_congr (c : Dev nD) {n n' : ℕ} (e : n = n') (h : n < cfg0.N) (h' : n' < cfg0.N) :
    accAt m c n h = accAt m c n' h' := by subst e; rfl

/-- After a first-chunk position: zero plus the step's term. -/
theorem acc_first (c : Dev nD) (t : Fin cfg0.N) (h0 : t.val % 4 = 0) (p q : Fin 1024) :
    accAt m c t.val t.isLt (ix2 p q) = 0 + termAt m c t p q := by
  rw [accAt_first m c t h0 (by omega), accFirst_eq, pay2_apply, pay1_apply]; rfl

/-- After any other position: what the position before left, plus the step's term. -/
theorem acc_next (c : Dev nD) (t : Fin cfg0.N) (h0 : ¬t.val % 4 = 0) (p q : Fin 1024) :
    accAt m c t.val t.isLt (ix2 p q) = accBefore m c t (ix2 p q) + termAt m c t p q := by
  by_cases h1 : t.val % 4 = 3
  · rw [accAt_last m c t h0 h1, accLast_eq, pay2_apply]; rfl
  · rw [accAt_mid m c t h0 h1, accMid_eq, pay2_apply]; rfl

/-- The output window's buffer after a last-chunk position: the same. -/
theorem out_last (c : Dev nD) (t : Fin cfg0.N) (h1 : t.val % 4 = 3) (p q : Fin 1024) :
    outAt m c t (ix2 p q) = accBefore m c t (ix2 p q) + termAt m c t p q := by
  rw [outAt_last m c t (by omega) h1, outLast_eq, pay2_apply]; rfl

/-- Grid position of row tile i, hidden chunk h. -/
def posOf (i : Fin 16) (h : ℕ) (hh : h < 4) : Fin cfg0.N := ⟨4 * i.val + h, lt_of_lt_of_eq (by omega) N_0.symm⟩

/-- Over a row tile: the four steps' terms added in order from zero. -/
theorem tile_chain (c : Dev nD) (i : Fin 16) (p q : Fin 1024) :
    outAt m c (posOf i 3 (by decide)) (ix2 p q)
      = (((0 + termAt m c (posOf i 0 (by decide)) p q) + termAt m c (posOf i 1 (by decide)) p q)
          + termAt m c (posOf i 2 (by decide)) p q) + termAt m c (posOf i 3 (by decide)) p q := by
  rw [out_last m c (posOf i 3 (by decide)) (by show (4 * i.val + 3) % 4 = 3; omega)]
  have e3 : accBefore m c (posOf i 3 (by decide)) = accAt m c (posOf i 2 (by decide)).val (posOf i 2 (by decide)).isLt :=
    accAt_congr m c (by show 4 * i.val + 3 - 1 = 4 * i.val + 2; omega) _ _
  rw [e3, acc_next m c (posOf i 2 (by decide)) (by show ¬(4 * i.val + 2) % 4 = 0; omega)]
  have e2 : accBefore m c (posOf i 2 (by decide)) = accAt m c (posOf i 1 (by decide)).val (posOf i 1 (by decide)).isLt :=
    accAt_congr m c (by show 4 * i.val + 2 - 1 = 4 * i.val + 1; omega) _ _
  rw [e2, acc_next m c (posOf i 1 (by decide)) (by show ¬(4 * i.val + 1) % 4 = 0; omega)]
  have e1 : accBefore m c (posOf i 1 (by decide)) = accAt m c (posOf i 0 (by decide)).val (posOf i 0 (by decide)).isLt :=
    accAt_congr m c (by show 4 * i.val + 1 - 1 = 4 * i.val + 0; omega) _ _
  rw [e1, acc_first m c (posOf i 0 (by decide)) (by show (4 * i.val + 0) % 4 = 0; omega)]

/-- Over a row tile: the result's rows 1024 i + p. -/
theorem tile_out (c : Dev nD) (i : Fin 16) (p q : Fin 1024) (r : Fin 16384) (hr : r.val = 1024 * i.val + p.val) :
    outAt m c (posOf i 3 (by decide)) (ix2 p q) = out2 (Ax m c) (Ag m c) (Ad m c) (Aw m c) (ix2 r q) := by
  rw [tile_chain, Cert.Spec.out2_chunks,
    term_eq m c (posOf i 0 (by decide)) p q r 0 (by show r.val = 1024 * ((4 * i.val + 0) / 4) + p.val; omega) (by show (0 : ℕ) = (4 * i.val + 0) % 4; omega),
    term_eq m c (posOf i 1 (by decide)) p q r 1 (by show r.val = 1024 * ((4 * i.val + 1) / 4) + p.val; omega) (by show (1 : ℕ) = (4 * i.val + 1) % 4; omega),
    term_eq m c (posOf i 2 (by decide)) p q r 2 (by show r.val = 1024 * ((4 * i.val + 2) / 4) + p.val; omega) (by show (2 : ℕ) = (4 * i.val + 2) % 4; omega),
    term_eq m c (posOf i 3 (by decide)) p q r 3 (by show r.val = 1024 * ((4 * i.val + 3) / 4) + p.val; omega) (by show (3 : ℕ) = (4 * i.val + 3) % 4; omega)]
  exact Cert.Spec.chain4 fun h => chunkTerm (Ax m c) (Ag m c) (Ad m c) (Aw m c) r q h

/-- The result array: out2 of the four arrays. -/
abbrev resArr (c : Dev nD) : Buf (Elt Ideal) ((c : Thread nD τ).loc main_v79) :=
  out2 (Ax m c) (Ag m c) (Ad m c) (Aw m c)

/-- What a write-back writes is the block of resArr it covers. -/
theorem flushed_eq (c : Dev nD) (t : Fin cfg0.N) (hf : (cfg0.win 4).flush t = true) :
    (dats m 0 c).flushed 4 t = ((cfg0.win 4).blk t).view.read (Elt Ideal) (resArr m c) := by
  have h3 : t.val % 4 = 3 := (flush0_4 t).mp hf
  have hN : t.val < 64 := lt_of_lt_of_eq t.isLt N_0
  obtain ⟨i, rfl⟩ : ∃ i : Fin 16, t = posOf i 3 (by decide) :=
    ⟨⟨t.val / 4, by omega⟩, Fin.ext (by show t.val = 4 * (t.val / 4) + 3; omega)⟩
  show (cfg0.win 4).cut (grid0.coords (posOf i 3 (by decide))) ((dats m 0 c).after 4 (posOf i 3 (by decide))) = _
  rw [after_4]
  funext y
  obtain ⟨p, q, rfl⟩ : ∃ (p q : Fin 1024), y = ix2 p q := ⟨y 0, y 1, eq_ix2 y⟩
  rw [View.read_apply]
  show outAt m c (posOf i 3 (by decide)) (ix2 p q) = resArr m c _
  rw [tile_out m c i p q ⟨1024 * i.val + p.val, by omega⟩ rfl]
  show out2 (Ax m c) (Ag m c) (Ad m c) (Aw m c) _ = out2 (Ax m c) (Ag m c) (Ad m c) (Aw m c) _
  congr 1
  funext a
  apply Fin.ext
  match a with
  | ⟨0, _⟩ => show 1024 * i.val + p.val = win0_4.index (posOf i 3 (by decide)) 0 * 1024 + 1 * p.val
              rw [(idx4 _).1]; show _ = (4 * i.val + 3) / 4 * 1024 + 1 * p.val; omega
  | ⟨1, _⟩ => show q.val = win0_4.index (posOf i 3 (by decide)) 1 * 1024 + 1 * q.val
              rw [(idx4 _).2]; omega

/-- The sixteen written blocks tile the rows, so the region's result array ends at resArr. -/
theorem final (c : Dev nD) : (dats m 0 c).arrAt 4 cfg0.N = resArr m c :=
  (dats m 0 c).arrAt_eq_of_cover 4 (resArr m c) (fun t hf => flushed_eq m c t hf) fun j => by
    have h0 : (j 0 : ℕ) < 16384 := (j 0).isLt
    have h1 : (j 1 : ℕ) < 1024 := (j 1).isLt
    let t0 : Fin cfg0.N := posOf ⟨(j 0).val / 1024, by omega⟩ 3 (by decide)
    have ht0 : t0.val = 4 * ((j 0).val / 1024) + 3 := rfl
    refine ⟨t0, (flush0_4 t0).mpr (by rw [ht0]; omega), ?_⟩
    show j ∈ ((View.whole main_v79).slice (win0_4.rect t0)).set
    rw [View.set_slice_whole, Rect.mem_set_unit]
    intro a
    match a with
    | ⟨0, _⟩ =>
      show win0_4.index t0 0 * 1024 ≤ (j 0 : ℕ) ∧ (j 0 : ℕ) < win0_4.index t0 0 * 1024 + 1024
      rw [(idx4 t0).1, ht0]
      omega
    | ⟨1, _⟩ =>
      show win0_4.index t0 1 * 1024 ≤ (j 1 : ℕ) ∧ (j 1 : ℕ) < win0_4.index t0 1 * 1024 + 1024
      rw [(idx4 t0).2]
      omega

end Cert.KernelIdeal.Hand

end
-- ==== Proof.KiWindows.lean ====
/-
  What the region's four input arrays hold when it is entered, as host terms of the arguments (any float instance):
  the activations reshaped to 16384 rows; rows 0 .. 4095 and rows 4096 .. 8191 of the fused up-projection weight,
  each after a change of float format; and the corrected down-projection weight after a change of float format.
  The corrected weight is  w0_down + lam * (out_emb @ ((coords @ R^T) @ in_proj))  with R the rotation matrix of
  the normalised quaternion; it is named here as ONE term ("wCorrected") and never opened: the reference builds
  it by the same operations, and the two terms are compared whole.
-/
import proofs.«156387_j11038065950940_2_alg».proof.Proof.KiEntry
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ)

set_option maxRecDepth 8192 in
/-- The corrected down-projection weight, as the host operations compose it from the arguments. -/
def wCorrected (c : Dev nD) : FVec F S1024x4096 .f32 :=
  (addf (m ((c.tc : Thread nD τ).loc main_arg2)) (mulf (broadcastInDim S1024x4096 ![] bcast_S_S1024x4096 (m ((c.tc : Thread nD τ).loc main_arg7))) (Host.dotGeneral dot_S1024x32_S32x4096_S1024x4096_1_0_0_1_n_n none (m ((c.tc : Thread nD τ).loc main_arg6)) (Host.dotGeneral dot_S32x3_S3x4096_S32x4096_1_0_0_1_n_n none (Host.dotGeneral dot_S32x3_S3x3_S32x3_1_0_0_1_n_n none (m ((c.tc : Thread nD τ).loc main_arg3)) (transpose S3x3 [1, 0] (concatenate S3x3 0 [⟨S1x3, (broadcastInDim S1x3 ![1] bcast_S3_S1x3_1 (concatenate S3 0 [⟨S1, (broadcastInDim S1 ![] bcast_S_S1 (subf (constant S_ .f32 0x3F800000#32) (mulf (constant S_ .f32 0x40000000#32) (addf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_))))))⟩, ⟨S1, (broadcastInDim S1 ![] bcast_S_S1 (mulf (constant S_ .f32 0x40000000#32) (subf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)))))⟩, ⟨S1, (broadcastInDim S1 ![] bcast_S_S1 (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)))))⟩] concatenates_S1_S1_S1_S3_d0))⟩, ⟨S1x3, (broadcastInDim S1x3 ![1] bcast_S3_S1x3_1 (concatenate S3 0 [⟨S1, (broadcastInDim S1 ![] bcast_S_S1 (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)))))⟩, ⟨S1, (broadcastInDim S1 ![] bcast_S_S1 (subf (constant S_ .f32 0x3F800000#32) (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)) (mulf (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_))))))⟩, ⟨S1, (broadcastInDim S1 ![] bcast_S_S1 (mulf (constant S_ .f32 0x40000000#32) (subf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)))))⟩] concatenates_S1_S1_S1_S3_d0))⟩, ⟨S1x3, (broadcastInDim S1x3 ![1] bcast_S3_S1x3_1 (concatenate S3 0 [⟨S1, (broadcastInDim S1 ![] bcast_S_S1 (mulf (constant S_ .f32 0x40000000#32) (subf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)))))⟩, ⟨S1, (broadcastInDim S1 ![] bcast_S_S1 (mulf (constant S_ .f32 0x40000000#32) (addf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)))))⟩, ⟨S1, (broadcastInDim S1 ![] bcast_S_S1 (subf (constant S_ .f32 0x3F800000#32) (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)) (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_))))))⟩] concatenates_S1_S1_S1_S3_d0))⟩] concatenates_S1x3_S1x3_S1x3_S3x3_d0) transposes_S3x3_S3x3_1_0)) (m ((c.tc : Thread nD τ).loc main_arg5))))))

set_option maxHeartbeats 16000000 in
/-- The down-projection window's array: the corrected weight after the change of format. -/
theorem V_w (c : Dev nD) : V m c main_v77 = truncf .bf16 (wCorrected m c) bitsLt_bf16_f32 := by
  show StableHlo.after (List.flatten [hostOps0, hostOps0_1]) (fun b => m (c, b)) (Proc.devRef .tc main_v77) = _
  simp only [hostOps0, hostOps0_1, List.flatten_cons, List.flatten_nil, List.append_nil, List.cons_append, List.nil_append]
  after_results_simp <;> rfl <;> (unfold wCorrected; rfl)

set_option maxHeartbeats 16000000 in
/-- The gate window's array: rows 0 .. 4095 of the fused weight. -/
theorem V_gate (c : Dev nD) : V m c main_v75
    = truncf .bf16 (extractStridedSlice S4096x1024 ![0, 0] (m ((c.tc : Thread nD τ).loc main_arg1)) slices_S8192x1024_S4096x1024_0_0) bitsLt_bf16_f32 := by
  show StableHlo.after (List.flatten [hostOps0, hostOps0_1]) (fun b => m (c, b)) (Proc.devRef .tc main_v75) = _
  simp only [hostOps0, hostOps0_1, List.flatten_cons, List.flatten_nil, List.append_nil, List.cons_append, List.nil_append]
  after_results_simp <;> rfl

set_option maxHeartbeats 16000000 in
/-- The data window's array: rows 4096 .. 8191 of the fused weight. -/
theorem V_data (c : Dev nD) : V m c main_v76
    = truncf .bf16 (extractStridedSlice S4096x1024 ![4096, 0] (m ((c.tc : Thread nD τ).loc main_arg1)) slices_S8192x1024_S4096x1024_4096_0) bitsLt_bf16_f32 := by
  show StableHlo.after (List.flatten [hostOps0, hostOps0_1]) (fun b => m (c, b)) (Proc.devRef .tc main_v76) = _
  simp only [hostOps0, hostOps0_1, List.flatten_cons, List.flatten_nil, List.append_nil, List.cons_append, List.nil_append]
  after_results_simp <;> rfl

set_option maxHeartbeats 16000000 in
/-- The activations' array: the argument reshaped to 16384 rows. -/
theorem V_x (c : Dev nD) : V m c main_v78
    = shapeCast S16384x1024 (m ((c.tc : Thread nD τ).loc main_arg0)) shapeCasts_S4x4096x1024_S16384x1024 := by
  show StableHlo.after (List.flatten [hostOps0, hostOps0_1]) (fun b => m (c, b)) (Proc.devRef .tc main_v78) = _
  simp only [hostOps0, hostOps0_1, List.flatten_cons, List.flatten_nil, List.append_nil, List.cons_append, List.nil_append]
  after_results_simp <;> rfl

end Cert.KernelIdeal.Hand

end
-- ==== Proof.KiOut.lean ====
/-
  The idealized kernel program's result, on the extended reals, as the specification of the arguments.

  The region's result array is out2 of the arrays it finds (the accumulation module). Those arrays are the
  arguments re-laid: row 4096 b + s of the activations' 16384-row array is x(b, s, .) (a reshape keeps the row-major
  position); row j of the gate array is row j of the fused weight, row j of the data array is row 4096 + j; the
  down-projection array is the corrected weight (changes of float format are the identity on these values). So
  out2 at (4096 b + s, d) is the specification's out at (b, s, d), term by term. The reshape after the region
  reads the result array at the same row-major position: the program's result is the specification of the
  activations, the fused weight and the corrected down-projection weight.
-/
import proofs.«156387_j11038065950940_2_alg».proof.Proof.KiAccum
import proofs.«156387_j11038065950940_2_alg».proof.Proof.KiWindows

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Pipeline
open Idealize.SL Idealize.SL.Sem
open Idealize.ShloMosaic.Pipeline (Dat Cfg Window)
open Cert.Spec (out2 loRow hiRow)

variable (m : (ℓ : Loc nD τ sig) → Buf (Elt Ideal) ℓ) (ρ : Dev nD → PrngReg)

/-- Token (b, s) as a row of the 16384-row layout. -/
abbrev rowOf (b : Fin 4) (s : Fin 4096) : Fin 16384 := ⟨4096 * b.val + s.val, by omega⟩

/-- The arguments the result depends on, at their literal types. -/
abbrev argX (c : Dev nD) : Cert.Spec.Sx.Idx → EReal := m ((c.tc : Thread nD τ).loc main_arg0)
abbrev argWf (c : Dev nD) : Cert.Spec.Swf.Idx → EReal := m ((c.tc : Thread nD τ).loc main_arg1)
abbrev argW (c : Dev nD) : Cert.Spec.SW.Idx → EReal := wCorrected m c

theorem Ax_apply (c : Dev nD) (b : Fin 4) (s : Fin 4096) (e : Fin 1024) :
    Ax m c (ix2 (rowOf b s) e) = argX m c (ix3 b s e) := by
  have key : (S4x4096x1024.rowMajor (ix3 b s e)).val = (S16384x1024.rowMajor (ix2 (rowOf b s) e)).val := by
    rw [Shape.rowMajor_val_three, Shape.rowMajor_val_two]
    show (b.val * 4096 + s.val) * 1024 + e.val = (4096 * b.val + s.val) * 1024 + e.val
    omega
  show V m c main_v78 _ = _
  rw [V_x]
  exact shapeCast_apply (s := S4x4096x1024) (t := S16384x1024) (argX m c) shapeCasts_S4x4096x1024_S16384x1024
    (ix2 (rowOf b s) e) (ix3 b s e) key

theorem Ag_apply (c : Dev nD) (j : Fin 4096) (e : Fin 1024) :
    Ag m c (ix2 j e) = argWf m c (ix2 (loRow j) e) := by
  show V m c main_v75 _ = _
  rw [V_gate]
  show extractStridedSlice S4096x1024 ![0, 0] (argWf m c) slices_S8192x1024_S4096x1024_0_0 (ix2 j e) = _
  unfold extractStridedSlice
  congr 1
  funext a
  apply Fin.ext
  match a with
  | ⟨0, _⟩ => show 0 + j.val = j.val; omega
  | ⟨1, _⟩ => show 0 + e.val = e.val; omega

theorem Ad_apply (c : Dev nD) (j : Fin 4096) (e : Fin 1024) :
    Ad m c (ix2 j e) = argWf m c (ix2 (hiRow j) e) := by
  show V m c main_v76 _ = _
  rw [V_data]
  show extractStridedSlice S4096x1024 ![4096, 0] (argWf m c) slices_S8192x1024_S4096x1024_4096_0 (ix2 j e) = _
  unfold extractStridedSlice
  congr 1
  funext a
  apply Fin.ext
  match a with
  | ⟨0, _⟩ => show 4096 + j.val = 4096 + j.val; rfl
  | ⟨1, _⟩ => show 0 + e.val = e.val; omega

theorem Aw_apply (c : Dev nD) (y : S1024x4096.Idx) : Aw m c y = argW m c y := by
  show V m c main_v77 y = _
  rw [V_w]
  rfl

/-- The program's result: the specification at the activations, the fused weight and the corrected weight. -/
abbrev outArr (c : Dev nD) : Buf (Elt Ideal) ((c.tc : Thread nD τ).loc main_v80) :=
  Cert.Spec.out (argX m c) (argWf m c) (argW m c)

/-- The region's result array at row 4096 b + s is the specification at (b, s, d). -/
theorem res_apply (c : Dev nD) (b : Fin 4) (s : Fin 4096) (d : Fin 1024) :
    resArr m c (ix2 (rowOf b s) d) = outArr m c (ix3 b s d) := by
  show (∑ j : Fin 4096, ((∑ e : Fin 1024, Ax m c (ix2 (rowOf b s) e) * Ag m c (ix2 j e))
        * Ideal.logistic (∑ e : Fin 1024, Ax m c (ix2 (rowOf b s) e) * Ag m c (ix2 j e))
        * (∑ e : Fin 1024, Ax m c (ix2 (rowOf b s) e) * Ad m c (ix2 j e))) * Aw m c (ix2 d j))
      = ∑ j : Fin 4096, ((∑ e : Fin 1024, argX m c (ix3 b s e) * argWf m c (ix2 (loRow j) e))
        * Ideal.logistic (∑ e : Fin 1024, argX m c (ix3 b s e) * argWf m c (ix2 (loRow j) e))
        * (∑ e : Fin 1024, argX m c (ix3 b s e) * argWf m c (ix2 (hiRow j) e))) * argW m c (ix2 d j)
  have hG : ∀ j : Fin 4096, (∑ e : Fin 1024, Ax m c (ix2 (rowOf b s) e) * Ag m c (ix2 j e))
      = ∑ e : Fin 1024, argX m c (ix3 b s e) * argWf m c (ix2 (loRow j) e) := fun j =>
    Finset.sum_congr rfl fun e _ => by rw [Ax_apply m c b s e, Ag_apply m c j e]
  have hD : ∀ j : Fin 4096, (∑ e : Fin 1024, Ax m c (ix2 (rowOf b s) e) * Ad m c (ix2 j e))
      = ∑ e : Fin 1024, argX m c (ix3 b s e) * argWf m c (ix2 (hiRow j) e) := fun j =>
    Finset.sum_congr rfl fun e _ => by rw [Ax_apply m c b s e, Ad_apply m c j e]
  exact Finset.sum_congr rfl fun j _ => by rw [hG j, hD j, Aw_apply m c (ix2 d j)]

/-- After the region and the last reshape, the result buffer holds the specification. -/
theorem tail_out (c : Dev nD) :
    Pipeline.afterTail₀ cfgs (dats m) 0 (V0 m) [hostOps1] c main_v80 = outArr m c := by
  unfold Pipeline.afterTail₀
  simp only [List.flatten_cons, List.flatten_nil, List.append_nil, hostOps1, StableHlo.after_cons, StableHlo.after_nil]
  rw [StableHlo.reshape_result]
  have e : Pipeline.withArrays (cfgs 0).spec c (V0 m c) (fun w => (dats m 0 c).arrAt w (cfgs 0).N) (Proc.devRef .tc main_v79) = resArr m c :=
    (Pipeline.withArrays_arr spec0 launch0.win.arr_inj c (V0 m c) (fun w => (dats m 0 c).arrAt w (cfgs 0).N) 4).trans (final m c)
  rw [e]
  funext j
  obtain ⟨b, s, d, rfl⟩ : ∃ (b : Fin 4) (s : Fin 4096) (d : Fin 1024), j = ix3 b s d := ⟨j 0, j 1, j 2, eq_ix3 j⟩
  show shapeCast S4x4096x1024 (resArr m c) shapeCasts_S16384x1024_S4x4096x1024 (ix3 b s d) = _
  have key : (S16384x1024.rowMajor (ix2 (rowOf b s) d)).val = (S4x4096x1024.rowMajor (ix3 b s d)).val := by
    rw [Shape.rowMajor_val_three, Shape.rowMajor_val_two]
    show (4096 * b.val + s.val) * 1024 + d.val = (b.val * 4096 + s.val) * 1024 + d.val
    omega
  rw [shapeCast_apply (s := S16384x1024) (t := S4x4096x1024) (resArr m c) shapeCasts_S16384x1024_S4x4096x1024 (ix3 b s d) (ix2 (rowOf b s) d) key]
  exact res_apply m c b s d

/-- The run, read: the result at the specification, the arguments unchanged. -/
theorem run_value : θ_run defs (onTc (τ := τ) (main (F := Ideal))) ⟨m, fun _ => 0, ρ⟩ (fun r => ∀ c : Dev nD,
      r.2.mem ((c.tc : Thread nD τ).loc main_v80) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    ((h c).2 main_v80 (Pipeline.mem_restRefs_of main_v80 rfl (by decide))).trans (tail_out m c),
    ((h c).2 main_arg0 (Pipeline.mem_restRefs_of main_arg0 rfl (by decide))).trans
      ((tail_other m (dats m) c main_arg0 (by decide) (by decide)).trans (V_arg0 m c)),
    ((h c).2 main_arg1 (Pipeline.mem_restRefs_of main_arg1 rfl (by decide))).trans
      ((tail_other m (dats m) c main_arg1 (by decide) (by decide)).trans (V_arg1 m c)),
    ((h c).2 main_arg2 (Pipeline.mem_restRefs_of main_arg2 rfl (by decide))).trans
      ((tail_other m (dats m) c main_arg2 (by decide) (by decide)).trans (V_arg2 m c)),
    ((h c).2 main_arg3 (Pipeline.mem_restRefs_of main_arg3 rfl (by decide))).trans
      ((tail_other m (dats m) c main_arg3 (by decide) (by decide)).trans (V_arg3 m c)),
    ((h c).2 main_arg4 (Pipeline.mem_restRefs_of main_arg4 rfl (by decide))).trans
      ((tail_other m (dats m) c main_arg4 (by decide) (by decide)).trans (V_arg4 m c)),
    ((h c).2 main_arg5 (Pipeline.mem_restRefs_of main_arg5 rfl (by decide))).trans
      ((tail_other m (dats m) c main_arg5 (by decide) (by decide)).trans (V_arg5 m c)),
    ((h c).2 main_arg6 (Pipeline.mem_restRefs_of main_arg6 rfl (by decide))).trans
      ((tail_other m (dats m) c main_arg6 (by decide) (by decide)).trans (V_arg6 m c)),
    ((h c).2 main_arg7 (Pipeline.mem_restRefs_of main_arg7 rfl (by decide))).trans
      ((tail_other m (dats m) c main_arg7 (by decide) (by decide)).trans (V_arg7 m c))⟩) (run_main m ρ)

end Cert.KernelIdeal.Hand

end
-- ==== Proof.RefOut.lean ====
/-
  The reference program's result is the specification.

  The reference computes, on the extended reals,
      fused(b,s,r) = sum over e < 1024 of x(b,s,e) * wf(r,e)                  (r < 8192)
      gate = the first half of fused's last axis  (rows 0 .. 4095 of wf),
      data = the second half                       (rows 4096 .. 8191 of wf),
      h    = (gate * (1 / (1 + exp (-gate)))) * data,
      out(b,s,d) = sum over j < 4096 of h(b,s,j) * W(d,j),
  where W is the given down-projection weight plus a scaled low-rank term built by host operations from the other
  arguments. 1 / (1 + exp (-g)) is the logistic function of g by definition, so out is Cert.Spec.out at x, wf and W.
  W is named once ("Wref") and never opened.
-/
import proofs.«156387_j11038065950940_2_alg».proof.Proof.Gen.ReferenceIdeal.Read
import proofs.«156387_j11038065950940_2_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

set_option maxRecDepth 8192 in
/-- The corrected down-projection weight [1024, 4096]: the given weight plus the scaled low-rank term, as the
    reference's host operations build it from the arguments. It enters the result only as an array read at (d, j). -/
def Wref (m : (ℓ : Loc nD τ sig) → Buf (Elt Ideal) ℓ) (c : Dev nD) : FVec Ideal S1024x4096 .f32 :=
  addf (m ((c.tc : Thread nD τ).loc main_arg2)) (mulf (broadcastInDim S1024x4096 ![] bcast_S_S1024x4096 (m ((c.tc : Thread nD τ).loc main_arg7))) (Host.dotGeneral (F := Ideal) (φ₁ := .f32) (φ₂ := .f32) dot_S1024x32_S32x4096_S1024x4096_1_0_0_1_n_n none (m ((c.tc : Thread nD τ).loc main_arg6)) (Host.dotGeneral (F := Ideal) (φ₁ := .f32) (φ₂ := .f32) dot_S32x3_S3x4096_S32x4096_1_0_0_1_n_n none (Host.dotGeneral (F := Ideal) (φ₁ := .f32) (φ₂ := .f32) dot_S32x3_S3x3_S32x3_1_0_0_1_n_n none (m ((c.tc : Thread nD τ).loc main_arg3)) (transpose S3x3 [1, 0] (concatenate S3x3 0 [⟨S1x3, (broadcastInDim S1x3 ![1] bcast_S3_S1x3_1 (concatenate S3 0 [⟨S1, (broadcastInDim S1 ![] bcast_S_S1 (subf (constant S_ .f32 0x3F800000#32) (mulf (constant S_ .f32 0x40000000#32) (addf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_))))))⟩, ⟨S1, (broadcastInDim S1 ![] bcast_S_S1 (mulf (constant S_ .f32 0x40000000#32) (subf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)))))⟩, ⟨S1, (broadcastInDim S1 ![] bcast_S_S1 (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)))))⟩] concatenates_S1_S1_S1_S3_d0))⟩, ⟨S1x3, (broadcastInDim S1x3 ![1] bcast_S3_S1x3_1 (concatenate S3 0 [⟨S1, (broadcastInDim S1 ![] bcast_S_S1 (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)))))⟩, ⟨S1, (broadcastInDim S1 ![] bcast_S_S1 (subf (constant S_ .f32 0x3F800000#32) (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)) (mulf (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_))))))⟩, ⟨S1, (broadcastInDim S1 ![] bcast_S_S1 (mulf (constant S_ .f32 0x40000000#32) (subf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)))))⟩] concatenates_S1_S1_S1_S3_d0))⟩, ⟨S1x3, (broadcastInDim S1x3 ![1] bcast_S3_S1x3_1 (concatenate S3 0 [⟨S1, (broadcastInDim S1 ![] bcast_S_S1 (mulf (constant S_ .f32 0x40000000#32) (subf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_)))))⟩, ⟨S1, (broadcastInDim S1 ![] bcast_S_S1 (mulf (constant S_ .f32 0x40000000#32) (addf (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![3] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_3) shapeCasts_S1_S_)) (mulf (shapeCast _ (extractStridedSlice S1 ![0] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_0) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)))))⟩, ⟨S1, (broadcastInDim S1 ![] bcast_S_S1 (subf (constant S_ .f32 0x3F800000#32) (mulf (constant S_ .f32 0x40000000#32) (addf (mulf (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_) (shapeCast _ (extractStridedSlice S1 ![1] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_1) shapeCasts_S1_S_)) (mulf (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_) (shapeCast _ (extractStridedSlice S1 ![2] (Host.divf (m ((c.tc : Thread nD τ).loc main_arg4)) (broadcastInDim S4 ![] bcast_S_S4 (Host.sqrt (Host.reduceAdd (mulf (m ((c.tc : Thread nD τ).loc main_arg4)) (m ((c.tc : Thread nD τ).loc main_arg4))) (constant S_ .f32 0x00000000#32) reducesTo_S4_S_d0 h_S_)))) slices_S4_S1_2) shapeCasts_S1_S_))))))⟩] concatenates_S1_S1_S1_S3_d0))⟩] concatenates_S1x3_S1x3_S1x3_S3x3_d0) transposes_S3x3_S3x3_1_0)) (m ((c.tc : Thread nD τ).loc main_arg5)))))

/-! ## The generated index functions at explicit coordinates -/

/-- The first contraction, at result (b, s, r) and contracted position e, reads the activations at (b, s, e) ... -/
theorem lidx_v0 (b : Fin 4) (s : Fin 4096) (r : Fin 8192) (e : Fin 1024) :
    Read.lidx_main_v0 (ix3 b s r) e = ix3 b s e :=
  funext fun a => by match a with | ⟨0, _⟩ => rfl | ⟨1, _⟩ => rfl | ⟨2, _⟩ => rfl

/-- ... and the fused weight at (r, e): row r is the output feature, e the contracted axis. -/
theorem ridx_v0 (b : Fin 4) (s : Fin 4096) (r : Fin 8192) (e : Fin 1024) :
    Read.ridx_main_v0 (ix3 b s r) e = ix2 r e :=
  funext fun a => by match a with | ⟨0, _⟩ => rfl | ⟨1, _⟩ => rfl

/-- The first half of the last axis: feature j of the half is feature j of the fused product. -/
theorem idx_v1 (b : Fin 4) (s : Fin 4096) (j : Fin 4096) :
    Read.idx_main_v1 (ix3 b s j) = ix3 b s (Cert.Spec.loRow j) :=
  funext fun a => by match a with | ⟨0, _⟩ => rfl | ⟨1, _⟩ => rfl | ⟨2, _⟩ => rfl

/-- The second half of the last axis: feature j of the half is feature 4096 + j of the fused product. -/
theorem idx_v2 (b : Fin 4) (s : Fin 4096) (j : Fin 4096) :
    Read.idx_main_v2 (ix3 b s j) = ix3 b s (Cert.Spec.hiRow j) :=
  funext fun a => by match a with | ⟨0, _⟩ => rfl | ⟨1, _⟩ => rfl | ⟨2, _⟩ => rfl

/-- The last contraction reads the gated unit at (b, s, j) ... -/
theorem lidx_v78 (b : Fin 4) (s : Fin 4096) (d : Fin 1024) (j : Fin 4096) :
    Read.lidx_main_v78 (ix3 b s d) j = ix3 b s j :=
  funext fun a => by match a with | ⟨0, _⟩ => rfl | ⟨1, _⟩ => rfl | ⟨2, _⟩ => rfl

/-- ... and the down-projection weight at (d, j). -/
theorem ridx_v78 (b : Fin 4) (s : Fin 4096) (d : Fin 1024) (j : Fin 4096) :
    Read.ridx_main_v78 (ix3 b s d) j = ix2 d j :=
  funext fun a => by match a with | ⟨0, _⟩ => rfl | ⟨1, _⟩ => rfl

/-! ## The stages at an index -/

/-- The fused up-projection at (b, s, r): the inner product of token (b, s) with row r of the fused weight. -/
theorem fused_stage (x : FVec Ideal S4x4096x1024 .f32) (wf : FVec Ideal S8192x1024 .f32)
    (b : Fin 4) (s : Fin 4096) (r : Fin 8192) :
    Read.val_main_v0 (F := Ideal) x wf (ix3 b s r) = ∑ e : Fin 1024, x (ix3 b s e) * wf (ix2 r e) := by
  rw [Read.val_main_v0_apply]
  simp only [lidx_v0, ridx_v0]

/-- The first half of the fused product is the gate pre-activation: rows 0 .. 4095 of the fused weight. -/
theorem gate_stage (x : FVec Ideal S4x4096x1024 .f32) (wf : FVec Ideal S8192x1024 .f32)
    (b : Fin 4) (s : Fin 4096) (j : Fin 4096) :
    Read.val_main_v1 (F := Ideal) x wf (ix3 b s j) = Cert.Spec.gate x wf b s j := by
  rw [Read.val_main_v1_apply, idx_v1, fused_stage]
  rfl

/-- The second half of the fused product is the data pre-activation: rows 4096 .. 8191 of the fused weight. -/
theorem data_stage (x : FVec Ideal S4x4096x1024 .f32) (wf : FVec Ideal S8192x1024 .f32)
    (b : Fin 4) (s : Fin 4096) (j : Fin 4096) :
    Read.val_main_v2 (F := Ideal) x wf (ix3 b s j) = Cert.Spec.data x wf b s j := by
  rw [Read.val_main_v2_apply, idx_v2, fused_stage]
  rfl

/-- The gated unit: g * (1 / (1 + exp (-g))) * data, and 1 / (1 + exp (-g)) is the logistic function of g. -/
theorem act_stage (x : FVec Ideal S4x4096x1024 .f32) (wf : FVec Ideal S8192x1024 .f32)
    (b : Fin 4) (s : Fin 4096) (j : Fin 4096) :
    Read.val_main_v4 (F := Ideal) x wf (ix3 b s j) = Cert.Spec.act x wf b s j := by
  rw [Read.val_main_v4_apply, Read.val_main_v3_apply, Read.val_main_call0_v5_apply, Read.val_main_call0_v4_apply,
    Read.val_main_call0_cst_0_apply, Read.val_main_call0_v3_apply, Read.val_main_call0_v2_apply,
    Read.val_main_call0_cst_apply, Read.val_main_call0_v1_apply, Read.val_main_call0_v0_apply,
    gate_stage, data_stage]
  simp only [Ideal.mulf_def, Ideal.hostDivf_def, Ideal.addf_def, Ideal.hostUnary_exp_def, Ideal.hostNegf_def,
    Ideal.negf_def, Ideal.ofBits_def, Ideal.ofBits_one_f32]
  rfl

/-- The result at (b, s, d): the sum over the 4096 hidden units of the gated unit times the weight at (d, j). -/
theorem out_stage (x : FVec Ideal S4x4096x1024 .f32) (wf : FVec Ideal S8192x1024 .f32)
    (x2 : FVec Ideal S1024x4096 .f32) (x3 : FVec Ideal S32x3 .f32) (x4 : FVec Ideal S4 .f32)
    (x5 : FVec Ideal S3x4096 .f32) (x6 : FVec Ideal S1024x32 .f32) (x7 : FVec Ideal S_ .f32)
    (b : Fin 4) (s : Fin 4096) (d : Fin 1024) :
    Read.val_main_v78 (F := Ideal) x wf x2 x3 x4 x5 x6 x7 (ix3 b s d)
      = ∑ j : Fin 4096, Cert.Spec.act x wf b s j * Read.val_main_v77 (F := Ideal) x2 x3 x4 x5 x6 x7 (ix2 d j) := by
  rw [Read.val_main_v78_apply]
  simp only [lidx_v78, ridx_v78, act_stage]

/-- The weight the last contraction reads is the composed term named above. -/
theorem Wref_eq (m : (ℓ : Loc nD τ sig) → Buf (Elt Ideal) ℓ) (c : Dev nD) :
    Read.val_main_v77 (F := Ideal) (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) = Wref m c := by
  unfold Wref; rfl

/-- The reference's result is the specification at the activations, the fused weight and the corrected
    down-projection weight. -/
theorem ref_out (m : (ℓ : Loc nD τ sig) → Buf (Elt Ideal) ℓ) (c : Dev nD) :
    Cert.ReferenceIdeal.Value.res_out0 (F := Ideal) m c
      = Cert.Spec.out (m ((c.tc : Thread nD τ).loc main_arg0)) (m ((c.tc : Thread nD τ).loc main_arg1)) (Wref m c) := by
  refine (Read.val_main_v78_eq (F := Ideal) m c).trans ?_
  funext i
  obtain ⟨b, s, d, rfl⟩ : ∃ (b : Fin 4) (s : Fin 4096) (d : Fin 1024), i = ix3 b s d := ⟨i 0, i 1, i 2, eq_ix3 i⟩
  rw [out_stage, Wref_eq]
  rfl

end Cert.ReferenceIdeal.RefValue

end
-- ==== Proof.WSame.lean ====
/-
  The corrected down-projection weight is built by the same host operations in both programs: from arguments
  that agree, the kernel program's term and the reference's are one term. Neither is opened.
-/
import proofs.«156387_j11038065950940_2_alg».proof.Proof.RefOut
import proofs.«156387_j11038065950940_2_alg».proof.Proof.KiWindows

set_option maxRecDepth 16384

noncomputable section

namespace Cert.Proof

open Idealize.ShloMosaic Idealize.ShloMosaic.TcCoe Idealize.SL.Sem

set_option maxHeartbeats 4000000 in
theorem w_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (c : Dev Cert.KernelIdeal.nD) :
    Cert.ReferenceIdeal.RefValue.Wref m' c = Cert.KernelIdeal.Hand.wCorrected (F := Ideal) m c := by
  unfold Cert.ReferenceIdeal.RefValue.Wref Cert.KernelIdeal.Hand.wCorrected
  rw [(hagree c).2.2.1, (hagree c).2.2.2.1, (hagree c).2.2.2.2.1, (hagree c).2.2.2.2.2.1, (hagree c).2.2.2.2.2.2.1,
    (hagree c).2.2.2.2.2.2.2]
  rfl

end Cert.Proof

end
-- ==== Proof.lean ====
/-
  The proof of Cert.Claim for the gated MLP kernel against its jnp reference.

  The three frames: the kernel program (as printed and idealized) is a pipelined region over a 16 x 4 grid between
  host operations; its body's obligation is met case by case (first / middle / last hidden chunk) with the
  accumulator carried from grid position to grid position, and the pipeline library's frame theorem gives the run
  and the arguments unchanged (Proof/KFrame.lean, Proof/KiFrame.lean). The reference has no kernel: its frame is
  its run with the result dropped.
  preserves: the idealization rewrote nothing.
  algebraic: on the extended reals the kernel program's result is the specification Cert.Spec.out of the
  activations, the fused up-projection weight and the corrected down-projection weight (Proof/KiOut.lean: the
  accumulator's four ordered additions per row tile are the sum over the four hidden chunks, which is the sum over
  all hidden units; regrouping a sum needs no finiteness), the reference's result is the same specification
  (Proof/RefOut.lean: the logistic function is 1 / (1 + exp (-g)) by definition), and the corrected weight is one
  term in both programs (Proof/WSame.lean).
-/
import proofs.«156387_j11038065950940_2_alg».proof.Defs
import proofs.«156387_j11038065950940_2_alg».proof.Proof.Gen.Kernel
import proofs.«156387_j11038065950940_2_alg».proof.Proof.Gen.KernelIdeal
import proofs.«156387_j11038065950940_2_alg».proof.Proof.Gen.ReferenceIdeal
import proofs.«156387_j11038065950940_2_alg».proof.Proof.Gen.Pre_finite_inputs
import proofs.«156387_j11038065950940_2_alg».proof.Proof.Gen.ReferenceIdeal.Read
import proofs.«156387_j11038065950940_2_alg».proof.Proof.KFrame
import proofs.«156387_j11038065950940_2_alg».proof.Proof.KiOut
import proofs.«156387_j11038065950940_2_alg».proof.Proof.RefOut
import proofs.«156387_j11038065950940_2_alg».proof.Proof.WSame
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end, from memories agreeing on the arguments, at the specification of the same arrays. -/
theorem algebraic : Cert.algebraic_KernelIdeal_ReferenceIdeal := by
  intro m ρ m' ρ' _ hagree
  refine ⟨fun c => Cert.KernelIdeal.Hand.outArr m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_out0 (F := Ideal) m' c = _
  rw [Cert.ReferenceIdeal.RefValue.ref_out m' c, w_same m m' hagree c, (hagree c).1, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
